-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x64x64 : Shape := ⟨3, ![8192, 64, 64]⟩
abbrev S8192x7 : Shape := ⟨2, ![8192, 7]⟩
abbrev S10000x70 : Shape := ⟨2, ![10000, 70]⟩
abbrev S70x70 : Shape := ⟨2, ![70, 70]⟩
abbrev S70 : Shape := ⟨1, ![70]⟩
abbrev S77x11 : Shape := ⟨2, ![77, 11]⟩
abbrev S11 : Shape := ⟨1, ![11]⟩
abbrev S_ : Shape := ⟨0, ![]⟩

class Facts : Prop where
  bcast_S_S8192x64x64 : S_.BroadcastsInDim S8192x64x64 (![] : Fin 0 → Fin S8192x64x64.rank)
  reducesTo_S8192x64x64_S_d0_1_2 : S8192x64x64.ReducesTo [0, 1, 2] S_
  h_S_ : 0 < S_.numel
  bcast_S_S8192x7 : S_.BroadcastsInDim S8192x7 (![] : Fin 0 → Fin S8192x7.rank)
  reducesTo_S8192x7_S_d0_1 : S8192x7.ReducesTo [0, 1] S_
  bcast_S_S10000x70 : S_.BroadcastsInDim S10000x70 (![] : Fin 0 → Fin S10000x70.rank)
  reducesTo_S10000x70_S_d0_1 : S10000x70.ReducesTo [0, 1] S_
  bcast_S_S70x70 : S_.BroadcastsInDim S70x70 (![] : Fin 0 → Fin S70x70.rank)
  reducesTo_S70x70_S_d0_1 : S70x70.ReducesTo [0, 1] S_
  bcast_S_S70 : S_.BroadcastsInDim S70 (![] : Fin 0 → Fin S70.rank)
  reducesTo_S70_S_d0 : S70.ReducesTo [0] S_
  bcast_S_S77x11 : S_.BroadcastsInDim S77x11 (![] : Fin 0 → Fin S77x11.rank)
  reducesTo_S77x11_S_d0_1 : S77x11.ReducesTo [0, 1] S_
  bcast_S_S11 : S_.BroadcastsInDim S11 (![] : Fin 0 → Fin S11.rank)
  reducesTo_S11_S_d0 : S11.ReducesTo [0] S_

variable [Facts]

def fn_part2 {F : FTy → Type} [FloatOps F] (main_arg8 : FVec F S77x11 .f32) (main_arg9 : FVec F S11 .f32) (main_v33 : IVec S_ 1) : IVec S_ 1 :=
  let main_v34 : FVec F S77x11 .f32 := Host.absf main_arg8
  let main_cst_12 : FVec F S_ .f32 := constant S_ .f32 0x7F800000#32
  let main_v35 : FVec F S77x11 .f32 := broadcastInDim S77x11 ![] bcast_S_S77x11 main_cst_12
  let main_v36 : IVec S77x11 1 := cmpf .olt main_v34 main_v35
  let main_c_13 : IVec S_ 1 := constantI S_ 1 1#1
  let main_v37 : IVec S_ 1 := (fun x v => Host.reduce IntOp.andi x v reducesTo_S77x11_S_d0_1 h_S_) main_v36 main_c_13
  let main_v38 : IVec S_ 1 := andi main_v33 main_v37
  let main_v39 : FVec F S11 .f32 := Host.absf main_arg9
  let main_cst_14 : FVec F S_ .f32 := constant S_ .f32 0x7F800000#32
  let main_v40 : FVec F S11 .f32 := broadcastInDim S11 ![] bcast_S_S11 main_cst_14
  let main_v41 : IVec S11 1 := cmpf .olt main_v39 main_v40
  let main_c_15 : IVec S_ 1 := constantI S_ 1 1#1
  let main_v42 : IVec S_ 1 := (fun x v => Host.reduce IntOp.andi x v reducesTo_S11_S_d0 h_S_) main_v41 main_c_15
  let main_v43 : IVec S_ 1 := andi main_v38 main_v42
  main_v43

def fn_part1 {F : FTy → Type} [FloatOps F] (main_arg5 : FVec F S70 .f32) (main_arg6 : FVec F S70x70 .f32) (main_arg7 : FVec F S70 .f32) (main_arg8 : FVec F S77x11 .f32) (main_arg9 : FVec F S11 .f32) (main_v13 : IVec S_ 1) (main_v16 : IVec S70x70 1) : IVec S_ 1 :=
  let main_c_5 : IVec S_ 1 := constantI S_ 1 1#1
  let main_v17 : IVec S_ 1 := (fun x v => Host.reduce IntOp.andi x v reducesTo_S70x70_S_d0_1 h_S_) main_v16 main_c_5
  let main_v18 : IVec S_ 1 := andi main_v13 main_v17
  let main_v19 : FVec F S70 .f32 := Host.absf main_arg5
  let main_cst_6 : FVec F S_ .f32 := constant S_ .f32 0x7F800000#32
  let main_v20 : FVec F S70 .f32 := broadcastInDim S70 ![] bcast_S_S70 main_cst_6
  let main_v21 : IVec S70 1 := cmpf .olt main_v19 main_v20
  let main_c_7 : IVec S_ 1 := constantI S_ 1 1#1
  let main_v22 : IVec S_ 1 := (fun x v => Host.reduce IntOp.andi x v reducesTo_S70_S_d0 h_S_) main_v21 main_c_7
  let main_v23 : IVec S_ 1 := andi main_v18 main_v22
  let main_v24 : FVec F S70x70 .f32 := Host.absf main_arg6
  let main_cst_8 : FVec F S_ .f32 := constant S_ .f32 0x7F800000#32
  let main_v25 : FVec F S70x70 .f32 := broadcastInDim S70x70 ![] bcast_S_S70x70 main_cst_8
  let main_v26 : IVec S70x70 1 := cmpf .olt main_v24 main_v25
  let main_c_9 : IVec S_ 1 := constantI S_ 1 1#1
  let main_v27 : IVec S_ 1 := (fun x v => Host.reduce IntOp.andi x v reducesTo_S70x70_S_d0_1 h_S_) main_v26 main_c_9
  let main_v28 : IVec S_ 1 := andi main_v23 main_v27
  let main_v29 : FVec F S70 .f32 := Host.absf main_arg7
  let main_cst_10 : FVec F S_ .f32 := constant S_ .f32 0x7F800000#32
  let main_v30 : FVec F S70 .f32 := broadcastInDim S70 ![] bcast_S_S70 main_cst_10
  let main_v31 : IVec S70 1 := cmpf .olt main_v29 main_v30
  let main_c_11 : IVec S_ 1 := constantI S_ 1 1#1
  let main_v32 : IVec S_ 1 := (fun x v => Host.reduce IntOp.andi x v reducesTo_S70_S_d0 h_S_) main_v31 main_c_11
  let main_v33 : IVec S_ 1 := andi main_v28 main_v32
  fn_part2 (F := F) main_arg8 main_arg9 main_v33

def fn {F : FTy → Type} [FloatOps F] (main_arg0 : IVec S8192x64 32) (main_arg1 : FVec F S8192x64x64 .f32) (main_arg2 : FVec F S8192x7 .f32) (main_arg3 : FVec F S10000x70 .f32) (main_arg4 : FVec F S70x70 .f32) (main_arg5 : FVec F S70 .f32) (main_arg6 : FVec F S70x70 .f32) (main_arg7 : FVec F S70 .f32) (main_arg8 : FVec F S77x11 .f32) (main_arg9 : FVec F S11 .f32) : IVec S_ 1 :=
  let main_v0 : FVec F S8192x64x64 .f32 := Host.absf main_arg1
  let main_cst : FVec F S_ .f32 := constant S_ .f32 0x7F800000#32
  let main_v1 : FVec F S8192x64x64 .f32 := broadcastInDim S8192x64x64 ![] bcast_S_S8192x64x64 main_cst
  let main_v2 : IVec S8192x64x64 1 := cmpf .olt main_v0 main_v1
  let main_c : IVec S_ 1 := constantI S_ 1 1#1
  let main_v3 : IVec S_ 1 := (fun x v => Host.reduce IntOp.andi x v reducesTo_S8192x64x64_S_d0_1_2 h_S_) main_v2 main_c
  let main_v4 : FVec F S8192x7 .f32 := Host.absf main_arg2
  let main_cst_0 : FVec F S_ .f32 := constant S_ .f32 0x7F800000#32
  let main_v5 : FVec F S8192x7 .f32 := broadcastInDim S8192x7 ![] bcast_S_S8192x7 main_cst_0
  let main_v6 : IVec S8192x7 1 := cmpf .olt main_v4 main_v5
  let main_c_1 : IVec S_ 1 := constantI S_ 1 1#1
  let main_v7 : IVec S_ 1 := (fun x v => Host.reduce IntOp.andi x v reducesTo_S8192x7_S_d0_1 h_S_) main_v6 main_c_1
  let main_v8 : IVec S_ 1 := andi main_v3 main_v7
  let main_v9 : FVec F S10000x70 .f32 := Host.absf main_arg3
  let main_cst_2 : FVec F S_ .f32 := constant S_ .f32 0x7F800000#32
  let main_v10 : FVec F S10000x70 .f32 := broadcastInDim S10000x70 ![] bcast_S_S10000x70 main_cst_2
  let main_v11 : IVec S10000x70 1 := cmpf .olt main_v9 main_v10
  let main_c_3 : IVec S_ 1 := constantI S_ 1 1#1
  let main_v12 : IVec S_ 1 := (fun x v => Host.reduce IntOp.andi x v reducesTo_S10000x70_S_d0_1 h_S_) main_v11 main_c_3
  let main_v13 : IVec S_ 1 := andi main_v8 main_v12
  let main_v14 : FVec F S70x70 .f32 := Host.absf main_arg4
  let main_cst_4 : FVec F S_ .f32 := constant S_ .f32 0x7F800000#32
  let main_v15 : FVec F S70x70 .f32 := broadcastInDim S70x70 ![] bcast_S_S70x70 main_cst_4
  let main_v16 : IVec S70x70 1 := cmpf .olt main_v14 main_v15
  fn_part1 (F := F) main_arg5 main_arg6 main_arg7 main_arg8 main_arg9 main_v13 main_v16
-- ==== Kernel.lean ====
abbrev S8192x64 : Shape := ⟨2, ![8192, 64]⟩
abbrev S8192x64x64 : Shape := ⟨3, ![8192, 64, 64]⟩
abbrev S8192x7 : Shape := ⟨2, ![8192, 7]⟩
abbrev S10000x70 : Shape := ⟨2, ![10000, 70]⟩
abbrev S70x70 : Shape := ⟨2, ![70, 70]⟩
abbrev S70 : Shape := ⟨1, ![70]⟩
abbrev S77x11 : Shape := ⟨2, ![77, 11]⟩
abbrev S11 : Shape := ⟨1, ![11]⟩
abbrev S1x70 : Shape := ⟨2, ![1, 70]⟩
abbrev S_ : Shape := ⟨0, ![]⟩
abbrev S8192x64x1 : Shape := ⟨3, ![8192, 64, 1]⟩
abbrev S8192x64x70 : Shape := ⟨3, ![8192, 64, 70]⟩
abbrev S70x11 : Shape := ⟨2, ![70, 11]⟩
abbrev S7x11 : Shape := ⟨2, ![7, 11]⟩
abbrev S8192x11 : Shape := ⟨2, ![8192, 11]⟩
abbrev S128x64x70 : Shape := ⟨3, ![128, 64, 70]⟩
abbrev S128x64x64 : Shape := ⟨3, ![128, 64, 64]⟩
abbrev S128x7 : Shape := ⟨2, ![128, 7]⟩
abbrev S128x11 : Shape := ⟨2, ![128, 11]⟩
abbrev S8192x70 : Shape := ⟨2, ![8192, 70]⟩
abbrev S128x64 : Shape := ⟨2, ![128, 64]⟩
abbrev S128x64x1 : Shape := ⟨3, ![128, 64, 1]⟩
abbrev S128x70 : Shape := ⟨2, ![128, 70]⟩
abbrev S1x11 : Shape := ⟨2, ![1, 11]⟩

abbrev nBuf : Space → Nat
  | .hbm => 30
  | .vmem => 13
  | .smem => 0
  | _ => 0

abbrev bufTy : (tb : Table) → Fin (tcTables nBuf tb) → BufTy
  | .hbm, ⟨0, _⟩ => ⟨S8192x64, .i32⟩
  | .hbm, ⟨1, _⟩ => ⟨S8192x64x64, .f32⟩
  | .hbm, ⟨2, _⟩ => ⟨S8192x7, .f32⟩
  | .hbm, ⟨3, _⟩ => ⟨S10000x70, .f32⟩
  | .hbm, ⟨4, _⟩ => ⟨S70x70, .f32⟩
  | .hbm, ⟨5, _⟩ => ⟨S70, .f32⟩
  | .hbm, ⟨6, _⟩ => ⟨S70x70, .f32⟩
  | .hbm, ⟨7, _⟩ => ⟨S70, .f32⟩
  | .hbm, ⟨8, _⟩ => ⟨S77x11, .f32⟩
  | .hbm, ⟨9, _⟩ => ⟨S11, .f32⟩
  | .hbm, ⟨10, _⟩ => ⟨S10000x70, .f32⟩
  | .hbm, ⟨11, _⟩ => ⟨S1x70, .f32⟩
  | .hbm, ⟨12, _⟩ => ⟨S10000x70, .f32⟩
  | .hbm, ⟨13, _⟩ => ⟨S10000x70, .f32⟩
  | .hbm, ⟨14, _⟩ => ⟨S_, .f32⟩
  | .hbm, ⟨15, _⟩ => ⟨S10000x70, .f32⟩
  | .hbm, ⟨16, _⟩ => ⟨S10000x70, .f32⟩
  | .hbm, ⟨17, _⟩ => ⟨S10000x70, .bf16⟩
  | .hbm, ⟨18, _⟩ => ⟨S_, .i32⟩
  | .hbm, ⟨19, _⟩ => ⟨S8192x64, .i32⟩
  | .hbm, ⟨20, _⟩ => ⟨S8192x64, .i1⟩
  | .hbm, ⟨21, _⟩ => ⟨S_, .i32⟩
  | .hbm, ⟨22, _⟩ => ⟨S8192x64, .i32⟩
  | .hbm, ⟨23, _⟩ => ⟨S8192x64, .i32⟩
  | .hbm, ⟨24, _⟩ => ⟨S8192x64, .i32⟩
  | .hbm, ⟨25, _⟩ => ⟨S8192x64x1, .i32⟩
  | .hbm, ⟨26, _⟩ => ⟨S8192x64x70, .bf16⟩
  | .hbm, ⟨27, _⟩ => ⟨S70x11, .f32⟩
  | .hbm, ⟨28, _⟩ => ⟨S7x11, .f32⟩
  | .hbm, ⟨29, _⟩ => ⟨S8192x11, .f32⟩
  | .local _ .vmem, ⟨0, _⟩ => ⟨S128x64x70, .bf16⟩
  | .local _ .vmem, ⟨1, _⟩ => ⟨S128x64x70, .bf16⟩
  | .local _ .vmem, ⟨2, _⟩ => ⟨S128x64x64, .f32⟩
  | .local _ .vmem, ⟨3, _⟩ => ⟨S128x64x64, .f32⟩
  | .local _ .vmem, ⟨4, _⟩ => ⟨S128x7, .f32⟩
  | .local _ .vmem, ⟨5, _⟩ => ⟨S128x7, .f32⟩
  | .local _ .vmem, ⟨6, _⟩ => ⟨S70x70, .f32⟩
  | .local _ .vmem, ⟨7, _⟩ => ⟨S70, .f32⟩
  | .local _ .vmem, ⟨8, _⟩ => ⟨S70x11, .f32⟩
  | .local _ .vmem, ⟨9, _⟩ => ⟨S7x11, .f32⟩
  | .local _ .vmem, ⟨10, _⟩ => ⟨S11, .f32⟩
  | .local _ .vmem, ⟨11, _⟩ => ⟨S128x11, .f32⟩
  | .local _ .vmem, ⟨12, _⟩ => ⟨S128x11, .f32⟩
  | _, _ => ⟨S8192x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x70 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x7 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S70x70 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S70 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S70x11 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7x11 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S11 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x11 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S70_S1x70_1 : S70.BroadcastsInDim S1x70 (![1] : Fin 1 → Fin S1x70.rank)
  bcast_S1x70_S10000x70_0_1 : S1x70.BroadcastsInDim S10000x70 (![0, 1] : Fin 2 → Fin S10000x70.rank)
  bcast_S_S10000x70 : S_.BroadcastsInDim S10000x70 (![] : Fin 0 → Fin S10000x70.rank)
  bitsLt_bf16_f32 : FTy.bits .bf16 < FTy.bits .f32
  bcast_S_S8192x64 : S_.BroadcastsInDim S8192x64 (![] : Fin 0 → Fin S8192x64.rank)
  bcast_S8192x64_S8192x64x1_0_1 : S8192x64.BroadcastsInDim S8192x64x1 (![0, 1] : Fin 2 → Fin S8192x64x1.rank)
  slices_S77x11_S70x11_0_0 : S77x11.Slices ![0, 0] S70x11
  slices_S77x11_S7x11_70_0 : S77x11.Slices ![70, 0] S7x11
  inb_S128x64x64_S128x64x64_0_0_0 : ∀ a, (![0, 0, 0] : Fin 3 → Nat) a + S128x64x64.size a ≤ S128x64x64.size a
  h_S128x64x64 : 0 < S128x64x64.numel
  inb_S128x64x70_S128x64x70_0_0_0 : ∀ a, (![0, 0, 0] : Fin 3 → Nat) a + S128x64x70.size a ≤ S128x64x70.size a
  h_S128x64x70 : 0 < S128x64x70.numel
  shapeCasts_S128x64x70_S128x64x70 : S128x64x70.ShapeCasts S128x64x70
  inb_S70x70_S70x70_0_0 : ∀ a, (![0, 0] : Fin 2 → Nat) a + S70x70.size a ≤ S70x70.size a
  h_S70x70 : 0 < S70x70.numel
  inb_S70_S70_0 : ∀ a, (![0] : Fin 1 → Nat) a + S70.size a ≤ S70.size a
  h_S70 : 0 < S70.numel
  shapeCasts_S128x64x70_S8192x70 : S128x64x70.ShapeCasts S8192x70
  shapeCasts_S70_S1x70 : S70.ShapeCasts S1x70
  broadcasts_S1x70_S8192x70 : S1x70.Broadcasts S8192x70
  shapeCasts_S8192x70_S128x64x70 : S8192x70.ShapeCasts S128x64x70
  reduces_S128x64x64_S128x64 : S128x64x64.Reduces [1] S128x64
  shapeCasts_S128x64_S128x64x1 : S128x64.ShapeCasts S128x64x1
  broadcasts_S128x64x1_S128x64x70 : S128x64x1.Broadcasts S128x64x70
  reduces_S128x64x70_S128x70 : S128x64x70.Reduces [1] S128x70
  inb_S128x7_S128x7_0_0 : ∀ a, (![0, 0] : Fin 2 → Nat) a + S128x7.size a ≤ S128x7.size a
  h_S128x7 : 0 < S128x7.numel
  inb_S70x11_S70x11_0_0 : ∀ a, (![0, 0] : Fin 2 → Nat) a + S70x11.size a ≤ S70x11.size a
  h_S70x11 : 0 < S70x11.numel
  shapeCasts_S70x11_S70x11 : S70x11.ShapeCasts S70x11
  inb_S7x11_S7x11_0_0 : ∀ a, (![0, 0] : Fin 2 → Nat) a + S7x11.size a ≤ S7x11.size a
  h_S7x11 : 0 < S7x11.numel
  shapeCasts_S7x11_S7x11 : S7x11.ShapeCasts S7x11
  inb_S11_S11_0 : ∀ a, (![0] : Fin 1 → Nat) a + S11.size a ≤ S11.size a
  h_S11 : 0 < S11.numel
  shapeCasts_S11_S1x11 : S11.ShapeCasts S1x11
  broadcasts_S1x11_S128x11 : S1x11.Broadcasts S128x11
  inb_S128x11_S128x11_0_0 : ∀ a, (![0, 0] : Fin 2 → Nat) a + S128x11.size a ≤ S128x11.size a
  h_S128x11 : 0 < S128x11.numel
  dot_S10000x70_S70x70_S10000x70_1_0_0_1_n_n_wf : DotDims.WF S10000x70 S70x70 S10000x70 [1] [0] [0] [1] [] []
  gather_S10000x70_S8192x64x1_S8192x64x70_2_0_n_n_0_2_170_wf : GatherDims.WF S10000x70 S8192x64x1 S8192x64x70 [2] [0] [] [0] [] 2 ![1, 70]
  dot_S128x64x64_S128x64x70_S128x64x70_2_1_1_2_0_0_wf : DotDims.WF S128x64x64 S128x64x70 S128x64x70 [2] [1] [1] [2] [0] [0]
  dot_S8192x70_S70x70_S8192x70_1_0_0_1_n_n_wf : DotDims.WF S8192x70 S70x70 S8192x70 [1] [0] [0] [1] [] []
  dot_S128x70_S70x11_S128x11_1_0_0_1_n_n_wf : DotDims.WF S128x70 S70x11 S128x11 [1] [0] [0] [1] [] []
  dot_S128x7_S7x11_S128x11_1_0_0_1_n_n_wf : DotDims.WF S128x7 S7x11 S128x11 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x70.size a ≤ S8192x64x70.size a
  hwx0_0 : ∀ i : grid0.Coords, EltTy.bits .bf16 = 32 ∨ (Rect.block (s := S8192x64x70) S128x64x70.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x64.size a ≤ S8192x64x64.size a
  hwx0_1 : ∀ i : grid0.Coords, EltTy.bits .f32 = 32 ∨ (Rect.block (s := S8192x64x64) S128x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x7.size a ≤ S8192x7.size a
  hwx0_2 : ∀ i : grid0.Coords, EltTy.bits .f32 = 32 ∨ (Rect.block (s := S8192x7) S128x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S70x70.size a ≤ S70x70.size a
  hwx0_3 : ∀ i : grid0.Coords, EltTy.bits .f32 = 32 ∨ (Rect.block (s := S70x70) S70x70.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S70.size a ≤ S70.size a
  hwx0_4 : ∀ i : grid0.Coords, EltTy.bits .f32 = 32 ∨ (Rect.block (s := S70) S70.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S70x11.size a ≤ S70x11.size a
  hwx0_5 : ∀ i : grid0.Coords, EltTy.bits .f32 = 32 ∨ (Rect.block (s := S70x11) S70x11.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S7x11.size a ≤ S7x11.size a
  hwx0_6 : ∀ i : grid0.Coords, EltTy.bits .f32 = 32 ∨ (Rect.block (s := S7x11) S7x11.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S11.size a ≤ S11.size a
  hwx0_7 : ∀ i : grid0.Coords, EltTy.bits .f32 = 32 ∨ (Rect.block (s := S11) S11.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x11.size a ≤ S8192x11.size a
  hwx0_8 : ∀ i : grid0.Coords, EltTy.bits .f32 = 32 ∨ (Rect.block (s := S8192x11) S128x11.size (cc0_transform_8 i) (hinb0_8 i)).WholeWords (EltTy.packing .f32)

variable [Facts₀]

def dot_S10000x70_S70x70_S10000x70_1_0_0_1_n_n : DotDims S10000x70 S70x70 S10000x70 where
  lhsContracting := [1]
  rhsContracting := [0]
  lhsNonContracting := [0]
  rhsNonContracting := [1]
  lhsBatch := []
  rhsBatch := []
  wf := dot_S10000x70_S70x70_S10000x70_1_0_0_1_n_n_wf
def gather_S10000x70_S8192x64x1_S8192x64x70_2_0_n_n_0_2_170 : GatherDims S10000x70 S8192x64x1 S8192x64x70 where
  offsetDims := [2]
  collapsedSliceDims := [0]
  operandBatchingDims := []
  startIndicesBatchingDims := []
  startIndexMap := [0]
  indexVectorDim := 2
  sliceSizes := ![1, 70]
  wf := gather_S10000x70_S8192x64x1_S8192x64x70_2_0_n_n_0_2_170_wf
def dot_S128x64x64_S128x64x70_S128x64x70_2_1_1_2_0_0 : DotDims S128x64x64 S128x64x70 S128x64x70 where
  lhsContracting := [2]
  rhsContracting := [1]
  lhsNonContracting := [1]
  rhsNonContracting := [2]
  lhsBatch := [0]
  rhsBatch := [0]
  wf := dot_S128x64x64_S128x64x70_S128x64x70_2_1_1_2_0_0_wf
def dot_S8192x70_S70x70_S8192x70_1_0_0_1_n_n : DotDims S8192x70 S70x70 S8192x70 where
  lhsContracting := [1]
  rhsContracting := [0]
  lhsNonContracting := [0]
  rhsNonContracting := [1]
  lhsBatch := []
  rhsBatch := []
  wf := dot_S8192x70_S70x70_S8192x70_1_0_0_1_n_n_wf
def dot_S128x70_S70x11_S128x11_1_0_0_1_n_n : DotDims S128x70 S70x11 S128x11 where
  lhsContracting := [1]
  rhsContracting := [0]
  lhsNonContracting := [0]
  rhsNonContracting := [1]
  lhsBatch := []
  rhsBatch := []
  wf := dot_S128x70_S70x11_S128x11_1_0_0_1_n_n_wf
def dot_S128x7_S7x11_S128x11_1_0_0_1_n_n : DotDims S128x7 S7x11 S128x11 where
  lhsContracting := [1]
  rhsContracting := [0]
  lhsNonContracting := [0]
  rhsNonContracting := [1]
  lhsBatch := []
  rhsBatch := []
  wf := dot_S128x7_S7x11_S128x11_1_0_0_1_n_n_wf

abbrev win0_0 : Pipeline.Window sig grid0 :=
  Pipeline.Window.ofSpec (Memref.whole main_v12) S128x64x70.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x7.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S70x70.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S70.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S70x11.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S7x11.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S11.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S128x11.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x64 : Shape := ⟨2, ![8192, 64]⟩
abbrev S8192x64x64 : Shape := ⟨3, ![8192, 64, 64]⟩
abbrev S8192x7 : Shape := ⟨2, ![8192, 7]⟩
abbrev S10000x70 : Shape := ⟨2, ![10000, 70]⟩
abbrev S70x70 : Shape := ⟨2, ![70, 70]⟩
abbrev S70 : Shape := ⟨1, ![70]⟩
abbrev S77x11 : Shape := ⟨2, ![77, 11]⟩
abbrev S11 : Shape := ⟨1, ![11]⟩
abbrev S_ : Shape := ⟨0, ![]⟩
abbrev S8192x64x1 : Shape := ⟨3, ![8192, 64, 1]⟩
abbrev S8192x64x70 : Shape := ⟨3, ![8192, 64, 70]⟩
abbrev S1x1x70 : Shape := ⟨3, ![1, 1, 70]⟩
abbrev S8192x70 : Shape := ⟨2, ![8192, 70]⟩
abbrev S8192x77 : Shape := ⟨2, ![8192, 77]⟩
abbrev S8192x11 : Shape := ⟨2, ![8192, 11]⟩
abbrev S1x11 : Shape := ⟨2, ![1, 11]⟩

abbrev nBuf : Space → Nat
  | .hbm => 42
  | .vmem => 0
  | .smem => 0
  | _ => 0

abbrev bufTy : (tb : Table) → Fin (tcTables nBuf tb) → BufTy
  | .hbm, ⟨0, _⟩ => ⟨S8192x64, .i32⟩
  | .hbm, ⟨1, _⟩ => ⟨S8192x64x64, .f32⟩
  | .hbm, ⟨2, _⟩ => ⟨S8192x7, .f32⟩
  | .hbm, ⟨3, _⟩ => ⟨S10000x70, .f32⟩
  | .hbm, ⟨4, _⟩ => ⟨S70x70, .f32⟩
  | .hbm, ⟨5, _⟩ => ⟨S70, .f32⟩
  | .hbm, ⟨6, _⟩ => ⟨S70x70, .f32⟩
  | .hbm, ⟨7, _⟩ => ⟨S70, .f32⟩
  | .hbm, ⟨8, _⟩ => ⟨S77x11, .f32⟩
  | .hbm, ⟨9, _⟩ => ⟨S11, .f32⟩
  | .hbm, ⟨10, _⟩ => ⟨S_, .i32⟩
  | .hbm, ⟨11, _⟩ => ⟨S8192x64, .i32⟩
  | .hbm, ⟨12, _⟩ => ⟨S8192x64, .i1⟩
  | .hbm, ⟨13, _⟩ => ⟨S_, .i32⟩
  | .hbm, ⟨14, _⟩ => ⟨S8192x64, .i32⟩
  | .hbm, ⟨15, _⟩ => ⟨S8192x64, .i32⟩
  | .hbm, ⟨16, _⟩ => ⟨S8192x64, .i32⟩
  | .hbm, ⟨17, _⟩ => ⟨S8192x64x1, .i32⟩
  | .hbm, ⟨18, _⟩ => ⟨S8192x64x70, .f32⟩
  | .hbm, ⟨19, _⟩ => ⟨S8192x64x70, .f32⟩
  | .hbm, ⟨20, _⟩ => ⟨S1x1x70, .f32⟩
  | .hbm, ⟨21, _⟩ => ⟨S8192x64x70, .f32⟩
  | .hbm, ⟨22, _⟩ => ⟨S8192x64x70, .f32⟩
  | .hbm, ⟨23, _⟩ => ⟨S_, .f32⟩
  | .hbm, ⟨24, _⟩ => ⟨S8192x64x70, .f32⟩
  | .hbm, ⟨25, _⟩ => ⟨S8192x64x70, .f32⟩
  | .hbm, ⟨26, _⟩ => ⟨S8192x64x70, .f32⟩
  | .hbm, ⟨27, _⟩ => ⟨S8192x64x70, .f32⟩
  | .hbm, ⟨28, _⟩ => ⟨S1x1x70, .f32⟩
  | .hbm, ⟨29, _⟩ => ⟨S8192x64x70, .f32⟩
  | .hbm, ⟨30, _⟩ => ⟨S8192x64x70, .f32⟩
  | .hbm, ⟨31, _⟩ => ⟨S_, .f32⟩
  | .hbm, ⟨32, _⟩ => ⟨S8192x64x70, .f32⟩
  | .hbm, ⟨33, _⟩ => ⟨S8192x64x70, .f32⟩
  | .hbm, ⟨34, _⟩ => ⟨S8192x64x70, .f32⟩
  | .hbm, ⟨35, _⟩ => ⟨S_, .f32⟩
  | .hbm, ⟨36, _⟩ => ⟨S8192x70, .f32⟩
  | .hbm, ⟨37, _⟩ => ⟨S8192x77, .f32⟩
  | .hbm, ⟨38, _⟩ => ⟨S8192x11, .f32⟩
  | .hbm, ⟨39, _⟩ => ⟨S1x11, .f32⟩
  | .hbm, ⟨40, _⟩ => ⟨S8192x11, .f32⟩
  | .hbm, ⟨41, _⟩ => ⟨S8192x11, .f32⟩
  | _, _ => ⟨S8192x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_cst : Ref sig .tc := ⟨.hbm, 23, rfl⟩
abbrev main_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_cst : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]

class Facts₀ : Prop where
  bcast_S_S8192x64 : S_.BroadcastsInDim S8192x64 (![] : Fin 0 → Fin S8192x64.rank)
  bcast_S8192x64_S8192x64x1_0_1 : S8192x64.BroadcastsInDim S8192x64x1 (![0, 1] : Fin 2 → Fin S8192x64x1.rank)
  bcast_S70_S1x1x70_2 : S70.BroadcastsInDim S1x1x70 (![2] : Fin 1 → Fin S1x1x70.rank)
  bcast_S1x1x70_S8192x64x70_0_1_2 : S1x1x70.BroadcastsInDim S8192x64x70 (![0, 1, 2] : Fin 3 → Fin S8192x64x70.rank)
  bcast_S_S8192x64x70 : S_.BroadcastsInDim S8192x64x70 (![] : Fin 0 → Fin S8192x64x70.rank)
  reducesTo_S8192x64x70_S8192x70_d1 : S8192x64x70.ReducesTo [1] S8192x70
  h_S_ : 0 < S_.numel
  concatenates_S8192x70_S8192x7_S8192x77_d1 : Shape.Concatenates [S8192x70, S8192x7] S8192x77 1
  bcast_S11_S1x11_1 : S11.BroadcastsInDim S1x11 (![1] : Fin 1 → Fin S1x11.rank)
  bcast_S1x11_S8192x11_0_1 : S1x11.BroadcastsInDim S8192x11 (![0, 1] : Fin 2 → Fin S8192x11.rank)
  gather_S10000x70_S8192x64x1_S8192x64x70_2_0_n_n_0_2_170_wf : GatherDims.WF S10000x70 S8192x64x1 S8192x64x70 [2] [0] [] [0] [] 2 ![1, 70]
  dot_S8192x64x70_S70x70_S8192x64x70_2_0_01_1_n_n_wf : DotDims.WF S8192x64x70 S70x70 S8192x64x70 [2] [0] [0, 1] [1] [] []
  dot_S8192x64x64_S8192x64x70_S8192x64x70_2_1_1_2_0_0_wf : DotDims.WF S8192x64x64 S8192x64x70 S8192x64x70 [2] [1] [1] [2] [0] [0]
  dot_S8192x77_S77x11_S8192x11_1_0_0_1_n_n_wf : DotDims.WF S8192x77 S77x11 S8192x11 [1] [0] [0] [1] [] []

variable [Facts₀]

def gather_S10000x70_S8192x64x1_S8192x64x70_2_0_n_n_0_2_170 : GatherDims S10000x70 S8192x64x1 S8192x64x70 where
  offsetDims := [2]
  collapsedSliceDims := [0]
  operandBatchingDims := []
  startIndicesBatchingDims := []
  startIndexMap := [0]
  indexVectorDim := 2
  sliceSizes := ![1, 70]
  wf := gather_S10000x70_S8192x64x1_S8192x64x70_2_0_n_n_0_2_170_wf
def dot_S8192x64x70_S70x70_S8192x64x70_2_0_01_1_n_n : DotDims S8192x64x70 S70x70 S8192x64x70 where
  lhsContracting := [2]
  rhsContracting := [0]
  lhsNonContracting := [0, 1]
  rhsNonContracting := [1]
  lhsBatch := []
  rhsBatch := []
  wf := dot_S8192x64x70_S70x70_S8192x64x70_2_0_01_1_n_n_wf
def dot_S8192x64x64_S8192x64x70_S8192x64x70_2_1_1_2_0_0 : DotDims S8192x64x64 S8192x64x70 S8192x64x70 where
  lhsContracting := [2]
  rhsContracting := [1]
  lhsNonContracting := [1]
  rhsNonContracting := [2]
  lhsBatch := [0]
  rhsBatch := [0]
  wf := dot_S8192x64x64_S8192x64x70_S8192x64x70_2_1_1_2_0_0_wf
def dot_S8192x77_S77x11_S8192x11_1_0_0_1_n_n : DotDims S8192x77 S77x11 S8192x11 where
  lhsContracting := [1]
  rhsContracting := [0]
  lhsNonContracting := [0]
  rhsNonContracting := [1]
  lhsBatch := []
  rhsBatch := []
  wf := dot_S8192x77_S77x11_S8192x11_1_0_0_1_n_n_wf

class Facts : Prop extends Facts₀ where

variable [Facts]
-- ==== Proof.LibERealFinite.lean ====
/-
  Extended reals that are real numbers: the predicate, its closure under the arithmetic the
  normalisation uses, and the two operations with corners (the quotient by a nonzero real and the
  reciprocal square root of a positive real) at real arguments.
-/
import Idealize.ShloMosaic.PureOps.Ideal
import Idealize.ShloMosaic.PureOps.Ideal.Laws
import Idealize.ShloMosaic.Lib.ReduceAll

noncomputable section

namespace Cert.Lib

open Idealize.ShloMosaic

/-- An extended real that is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    exact ⟨x.toReal, (EReal.coe_toReal h1 h2).symm⟩

theorem IsReal.ne_top {x : EReal} (h : IsReal x) : x ≠ ⊤ := ((isReal_iff x).mp h).1

theorem IsReal.ne_bot {x : EReal} (h : IsReal x) : x ≠ ⊥ := ((isReal_iff x).mp h).2

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

/-- The larger of two reals, as extended reals, is the larger real. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem IsReal.max {x y : EReal} (hx : IsReal x) (hy : IsReal y) : IsReal (max x y) := by
  obtain ⟨a, rfl⟩ := hx
  obtain ⟨b, rfl⟩ := hy
  exact ⟨_, coe_max a b⟩

/-- A finite sum of reals, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A row of a matrix product of real matrices is real. -/
theorem IsReal.dot {ι : Type*} (s : Finset ι) (x w : ι → EReal) (hx : ∀ k, IsReal (x k)) (hw : ∀ k, IsReal (w k)) :
    IsReal (∑ k ∈ s, x k * w k) :=
  IsReal.sum s _ fun k _ => (hx k).mul (hw k)

/-- The quotient of a real by a nonzero real is the real quotient. -/
theorem div_coe_coe (a : ℝ) {c : ℝ} (hc : c ≠ 0) : Ideal.div (a : EReal) (c : EReal) = ((a / c : ℝ) : EReal) := by
  rw [Ideal.div_coe hc, ← EReal.coe_mul, mul_one_div]

theorem IsReal.div_coe {x : EReal} (hx : IsReal x) {c : ℝ} (hc : c ≠ 0) : IsReal (Ideal.div x (c : EReal)) := by
  obtain ⟨a, rfl⟩ := hx
  exact ⟨_, div_coe_coe a hc⟩

/-- The reciprocal square root of a positive real is the real one. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_pos {r : ℝ} (h : 0 < r) : IsReal (Ideal.rsqrt (r : EReal)) := ⟨_, rsqrt_coe_pos h⟩

/-- `(1 + ε) · x + z` of reals is real. -/
theorem IsReal.affine {a x z : EReal} (ha : IsReal a) (hx : IsReal x) (hz : IsReal z) : IsReal ((1 + a) * x + z) :=
  ((isReal_one.add ha).mul hx).add hz

/-- A gather of real entries has real entries: each one is an entry of the operand. -/
theorem isReal_gather {s si t : Shape} {w : Nat} (d : GatherDims s si t) (x : s.Idx → EReal) (idx : IVec si w)
    (hx : ∀ i, IsReal (x i)) (j : t.Idx) : IsReal (Host.gather d x idx j) :=
  hx _

/-- A scatter-add, on the extended reals, of real updates into real entries has real entries: each one is an
    entry of the operand plus a finite sum of updates. -/
theorem isReal_scatterAdd {φ : FTy} {s si su : Shape} {w : Nat} (d : ScatterDims s si su) (x : FVec Ideal s φ)
    (idx : IVec si w) (upd : FVec Ideal su φ) (hx : ∀ i, IsReal (x i)) (hu : ∀ j, IsReal (upd j)) (i : s.Idx) :
    IsReal (Host.scatterAdd d x idx upd i) := by
  show IsReal (x i + ∑ j ∈ _, upd j)
  exact (hx i).add (IsReal.sum _ _ fun j _ => hu j)

/-- The f32 pattern `0x7F800000` denotes +∞. -/
theorem ofBits_inf_f32 : Ideal.ofBits .f32 0x7F800000#32 = ⊤ := by
  simp [Ideal.ofBits, Ideal.ieee]

/-- An extended real whose absolute value compares below +∞ is a real. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  change BitVec.ofBool (decide (max x (-x) < Ideal.ofBits .f32 0x7F800000#32)) = 1#1 at h
  rw [ofBits_inf_f32] at h
  induction x using EReal.rec with
  | bot => simp at h
  | coe r => exact ⟨r, rfl⟩
  | top => simp at h

/-- `all (|x| < +∞)` over a whole array (the reduction by `and` of the comparison against the broadcast pattern of
    +∞ is 1) says every entry is a real. -/
theorem isReal_of_all_finite {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] bc (constant ⟨0, ![]⟩ .f32 0x7F800000#32)))
      (constantI ⟨0, ![]⟩ 1 1#1) h hu j = 1#1) (i : s.Idx) : IsReal (x i) := by
  haveI : Subsingleton (⟨0, ![]⟩ : Shape).Idx := ⟨fun a b => funext fun d => d.elim0⟩
  exact isReal_of_abs_lt_inf (x i) (Host.reduce_andi_all _ _ h hu j e i)

/-- The same for a scalar (no broadcast of the pattern). -/
theorem isReal_of_all_finite₀ {axes : List (Fin (⟨0, ![]⟩ : Shape).rank)} (x : FVec Ideal ⟨0, ![]⟩ .f32)
    (h : (⟨0, ![]⟩ : Shape).ReducesTo axes ⟨0, ![]⟩) (hu : 0 < (⟨0, ![]⟩ : Shape).numel) (j : (⟨0, ![]⟩ : Shape).Idx)
    (e : Host.reduce IntOp.andi (cmpf .olt (Host.absf x) (constant ⟨0, ![]⟩ .f32 0x7F800000#32))
      (constantI ⟨0, ![]⟩ 1 1#1) h hu j = 1#1) (i : (⟨0, ![]⟩ : Shape).Idx) : IsReal (x i) := by
  haveI : Subsingleton (⟨0, ![]⟩ : Shape).Idx := ⟨fun a b => funext fun d => d.elim0⟩
  exact isReal_of_abs_lt_inf (x i) (Host.reduce_andi_all _ _ h hu j e i)

end Cert.Lib

end
-- ==== Proof.Spec.lean ====
/-
  The message-passing network's output as ONE function of its arrays, index by index, on the extended reals.

  A molecule `b` has 64 atoms; atom `n` carries a row of 70 features `x b n ·` (layer one's output: a row of the embedding
  table taken through a linear map and a rectifier, `hid1`, the row chosen by the atom's clamped start index, `rowOf`).
  The rest of the network reads molecule `b` only: the atoms' rows are mixed by the molecule's adjacency matrix (`msg`),
  taken through a second linear map and rectifier (`hid`), mixed again and summed over the atoms (the pooled row), joined
  with seven descriptors and sent through a last linear map with a bias.  It is stated for any number `B` of molecules, so
  that a block of 128 molecules and the whole batch of 8192 are the same function (`outK_row`).

  The pooled row is written in two orders.  `pooledR` mixes first and then sums over the atoms:
  `∑ n, ∑ m, adj b n m * hid b m d`.  `pooledK` sums the adjacency matrix's columns first:
  `∑ m, (∑ n, adj b n m) * hid b m d`.  They agree when every entry is a real number (`pooledR_eq_pooledK`): the sum over
  `n` moves inside by distributivity, which the extended reals have only away from the infinities.
  The last linear map over the 77 joined columns is the map over the 70 pooled columns plus the map over the 7 descriptor
  columns (`sum_join`), a re-indexing of one finite sum that needs no finiteness.
-/
import Idealize.ShloMosaic.PureOps.Ideal
import Idealize.ShloMosaic.Lib.ValueIdx
import proofs.«178164_j63797444214829_2_alg».proof.Proof.LibERealFinite

noncomputable section

namespace Cert.Gnn

open Idealize.ShloMosaic Idealize.ShloMosaic.ValueIdx Cert.Lib

abbrev SIdx3 : Shape := ⟨3, ![8192, 64, 1]⟩
abbrev STab : Shape := ⟨2, ![10000, 70]⟩
abbrev SW : Shape := ⟨2, ![70, 70]⟩
abbrev SB : Shape := ⟨1, ![70]⟩
abbrev SWp : Shape := ⟨2, ![77, 11]⟩
abbrev SWp1 : Shape := ⟨2, ![70, 11]⟩
abbrev SWp2 : Shape := ⟨2, ![7, 11]⟩
abbrev SBp : Shape := ⟨1, ![11]⟩

/-- The table row atom `n` of molecule `b` reads: its start index, read signed, clamped into `[0, 9999]`. -/
def rowOf (idx : SIdx3.Idx → BitVec 32) (b : Fin 8192) (n : Fin 64) : Fin 10000 :=
  ⟨min (idx (ix3 b n 0)).toInt.toNat 9999, by omega⟩

/-- Layer one's linear map and rectifier on table row `r`, column `e`. -/
def hid1 (E : STab.Idx → EReal) (w1 : SW.Idx → EReal) (b1 : SB.Idx → EReal) (r : Fin 10000) (e : Fin 70) : EReal :=
  max ((∑ d : Fin 70, E (ix2 r d) * w1 (ix2 d e)) + b1 (ix1 e)) 0

theorem isReal_hid1 {E : STab.Idx → EReal} {w1 : SW.Idx → EReal} {b1 : SB.Idx → EReal}
    (hE : ∀ i, IsReal (E i)) (hw1 : ∀ i, IsReal (w1 i)) (hb1 : ∀ i, IsReal (b1 i)) (r : Fin 10000) (e : Fin 70) :
    IsReal (hid1 E w1 b1 r e) :=
  ((IsReal.sum _ _ fun d _ => (hE _).mul (hw1 _)).add (hb1 _)).max isReal_zero

section Tail
variable {B : ℕ} (adj : (⟨3, ![B, 64, 64]⟩ : Shape).Idx → EReal) (x : (⟨3, ![B, 64, 70]⟩ : Shape).Idx → EReal)
  (sel : (⟨2, ![B, 7]⟩ : Shape).Idx → EReal) (w2 : SW.Idx → EReal) (b2 : SB.Idx → EReal)

/-- Mixing: atom `n` of molecule `b` collects the atoms' rows, weighted by row `n` of the adjacency matrix. -/
def msg (b : Fin B) (n : Fin 64) (d : Fin 70) : EReal :=
  ∑ m : Fin 64, adj (ix3 b n m) * x (ix3 b m d)

/-- Layer two's linear map and rectifier on the mixed rows. -/
def hid (b : Fin B) (n : Fin 64) (e : Fin 70) : EReal :=
  max ((∑ d : Fin 70, msg adj x b n d * w2 (ix2 d e)) + b2 (ix1 e)) 0

/-- The pooled row, mixing first: the sum over the atoms `n` of layer two's mixed rows. -/
def pooledR (b : Fin B) (d : Fin 70) : EReal :=
  ∑ n : Fin 64, ∑ m : Fin 64, adj (ix3 b n m) * hid adj x w2 b2 b m d

/-- The pooled row, column sums first: each atom's row weighted by the sum of its column of the adjacency matrix. -/
def pooledK (b : Fin B) (d : Fin 70) : EReal :=
  ∑ m : Fin 64, (∑ n : Fin 64, adj (ix3 b n m)) * hid adj x w2 b2 b m d

/-- The output with the last linear map split over the pooled columns and the descriptor columns. -/
def outK (wp1 : SWp1.Idx → EReal) (wp2 : SWp2.Idx → EReal) (bp : SBp.Idx → EReal) (b : Fin B) (c : Fin 11) : EReal :=
  ((∑ d : Fin 70, pooledK adj x w2 b2 b d * wp1 (ix2 d c)) + ∑ k : Fin 7, sel (ix2 b k) * wp2 (ix2 k c)) + bp (ix1 c)

/-- The joined row: the 70 pooled columns, then the 7 descriptors. -/
def joined (b : Fin B) (k : Fin 77) : EReal :=
  if h : k.val < 70 then pooledR adj x w2 b2 b ⟨k.val, h⟩ else sel (ix2 b ⟨k.val - 70, by omega⟩)

/-- The output with the last linear map over the 77 joined columns. -/
def outR (wp : SWp.Idx → EReal) (bp : SBp.Idx → EReal) (b : Fin B) (c : Fin 11) : EReal :=
  (∑ k : Fin 77, joined adj x sel w2 b2 b k * wp (ix2 k c)) + bp (ix1 c)

variable {adj x sel w2 b2}

theorem isReal_msg (hadj : ∀ i, IsReal (adj i)) (hx : ∀ i, IsReal (x i)) (b : Fin B) (n : Fin 64) (d : Fin 70) :
    IsReal (msg adj x b n d) :=
  IsReal.sum _ _ fun m _ => (hadj _).mul (hx _)

theorem isReal_hid (hadj : ∀ i, IsReal (adj i)) (hx : ∀ i, IsReal (x i)) (hw2 : ∀ i, IsReal (w2 i)) (hb2 : ∀ i, IsReal (b2 i))
    (b : Fin B) (n : Fin 64) (e : Fin 70) : IsReal (hid adj x w2 b2 b n e) :=
  ((IsReal.sum _ _ fun d _ => (isReal_msg hadj hx _ _ _).mul (hw2 _)).add (hb2 _)).max isReal_zero

/-- Molecule `b` of one batch and molecule `b'` of another with the same adjacency matrix, rows and descriptors have
    the same output: the network's tail reads one molecule only. -/
theorem outK_row {B' : ℕ} {adj' : (⟨3, ![B', 64, 64]⟩ : Shape).Idx → EReal} {x' : (⟨3, ![B', 64, 70]⟩ : Shape).Idx → EReal}
    {sel' : (⟨2, ![B', 7]⟩ : Shape).Idx → EReal} (wp1 : SWp1.Idx → EReal) (wp2 : SWp2.Idx → EReal) (bp : SBp.Idx → EReal)
    (b : Fin B) (b' : Fin B') (hadj : ∀ n m, adj' (ix3 b' n m) = adj (ix3 b n m))
    (hx : ∀ n d, x' (ix3 b' n d) = x (ix3 b n d)) (hsel : ∀ k, sel' (ix2 b' k) = sel (ix2 b k)) (c : Fin 11) :
    outK adj' x' sel' w2 b2 wp1 wp2 bp b' c = outK adj x sel w2 b2 wp1 wp2 bp b c := by
  unfold outK pooledK hid msg
  simp only [hadj, hx, hsel]

end Tail

/-! ## The two laws -/

/-- Summing a weighted family over `n` and then over `m`, against weighting by the sums over `n`: equal when every
    weight and every value is a real number (exchange the two sums, then distributivity in the reals). -/
theorem sum_sum_mul_eq {N M : Type*} [Fintype N] [Fintype M] (a : N → M → EReal) (h : M → EReal)
    (ha : ∀ n m, IsReal (a n m)) (hh : ∀ m, IsReal (h m)) :
    ∑ n : N, ∑ m : M, a n m * h m = ∑ m : M, (∑ n : N, a n m) * h m := by
  choose a' ha' using ha
  choose h' hh' using hh
  rw [Finset.sum_comm]
  refine Finset.sum_congr rfl fun m _ => ?_
  simp only [ha', hh' m]
  rw [coe_sum, ← EReal.coe_mul, Finset.sum_mul]
  simp only [← EReal.coe_mul]
  rw [coe_sum]

theorem pooledR_eq_pooledK {B : ℕ} {adj : (⟨3, ![B, 64, 64]⟩ : Shape).Idx → EReal} {x : (⟨3, ![B, 64, 70]⟩ : Shape).Idx → EReal}
    {w2 : SW.Idx → EReal} {b2 : SB.Idx → EReal}
    (hadj : ∀ i, IsReal (adj i)) (hx : ∀ i, IsReal (x i)) (hw2 : ∀ i, IsReal (w2 i)) (hb2 : ∀ i, IsReal (b2 i))
    (b : Fin B) (d : Fin 70) : pooledR adj x w2 b2 b d = pooledK adj x w2 b2 b d :=
  sum_sum_mul_eq (fun n m => adj (ix3 b n m)) (fun m => hid adj x w2 b2 b m d) (fun _ _ => hadj _)
    (fun _ => isReal_hid hadj hx hw2 hb2 _ _ _)

/-- A sum over 77 columns is the sum over the first 70 plus the sum over the last 7. -/
theorem sum_join {M : Type*} [AddCommMonoid M] (f : Fin 77 → M) :
    ∑ k : Fin 77, f k = (∑ d : Fin 70, f ⟨d.val, by omega⟩) + ∑ k : Fin 7, f ⟨70 + k.val, by omega⟩ := by
  have h := Fin.sum_univ_add (a := 70) (b := 7) f
  rw [h]
  rfl

/-- The two outputs agree when the adjacency matrices, the atoms' rows and layer two's weights are real numbers, the
    split weights being the two row ranges of the joined weights. -/
theorem outR_eq_outK {B : ℕ} {adj : (⟨3, ![B, 64, 64]⟩ : Shape).Idx → EReal} {x : (⟨3, ![B, 64, 70]⟩ : Shape).Idx → EReal}
    (sel : (⟨2, ![B, 7]⟩ : Shape).Idx → EReal) {w2 : SW.Idx → EReal} {b2 : SB.Idx → EReal}
    (wp : SWp.Idx → EReal) (wp1 : SWp1.Idx → EReal) (wp2 : SWp2.Idx → EReal) (bp : SBp.Idx → EReal)
    (hadj : ∀ i, IsReal (adj i)) (hx : ∀ i, IsReal (x i)) (hw2 : ∀ i, IsReal (w2 i)) (hb2 : ∀ i, IsReal (b2 i))
    (hwp1 : ∀ (d : Fin 70) (c : Fin 11), wp1 (ix2 d c) = wp (ix2 (⟨d.val, by omega⟩ : Fin 77) c))
    (hwp2 : ∀ (k : Fin 7) (c : Fin 11), wp2 (ix2 k c) = wp (ix2 (⟨70 + k.val, by omega⟩ : Fin 77) c))
    (b : Fin B) (c : Fin 11) :
    outR adj x sel w2 b2 wp bp b c = outK adj x sel w2 b2 wp1 wp2 bp b c := by
  unfold outR outK
  rw [sum_join]
  congr 2
  · refine Finset.sum_congr rfl fun d _ => ?_
    unfold joined
    rw [dif_pos (show (⟨d.val, by omega⟩ : Fin 77).val < 70 from d.isLt), pooledR_eq_pooledK hadj hx hw2 hb2, hwp1]
  · refine Finset.sum_congr rfl fun k _ => ?_
    unfold joined
    rw [dif_neg (show ¬ (⟨70 + k.val, by omega⟩ : Fin 77).val < 70 from by show ¬ 70 + k.val < 70; omega), hwp2]
    congr 3
    exact Fin.ext (by show 70 + k.val - 70 = k.val; omega)

end Cert.Gnn

end
-- ==== Proof.LibFlattenRows.lean ====
/-
  Layout operations of a stack of matrices read at an index given by coordinates, extents general.

  * a matrix `[a, c]` cast to `[a, 1, c]` (a new unit middle axis) and that broadcast along the middle axis to `[a, b, c]`:
    entry `(p, q, r)` is the matrix at `(p, r)`;
  * a stack `[1, b, c]` broadcast along its leading axis to `[a, b, c]`: entry `(p, q, r)` is the operand at `(0, q, r)`;
  * a stack `[a, b, c]` flattened to `[m, c]` with `m = a·b` rows, and a matrix `[m, c]` cut back into `[a, b, c]`:
    row `p·b + q` of the matrix is row `(p, q)` of the stack (row-major order).
-/
import Idealize.ShloMosaic.Lib.ValueLayout

namespace Cert.LibFlattenRows

open Idealize.ShloMosaic Idealize.ShloMosaic.ValueIdx

variable {α : Type}

/-- An `[a, c]` matrix cast to `[a, 1, c]` reads, at `(p, w, r)`, the matrix at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (w : Fin 1) (r : Fin c) :
    shapeCast ⟨3, ![a, 1, c]⟩ x h (ix3 p w r) = x (ix2 p r) :=
  shapeCast_apply x h _ _ (by
    have hw : w.val = 0 := by omega
    rw [Shape.rowMajor_val_three, Shape.rowMajor_val_two]
    show p.val * c + r.val = (p.val * 1 + w.val) * c + r.val
    rw [hw, Nat.mul_one, Nat.add_zero])

/-- An `[a, 1, c]` array broadcast along its middle axis to `[a, b, c]` reads, at `(p, q, r)`, the operand at
    `(p, 0, r)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array broadcast along its leading axis to `[a, b, c]` reads, at `(p, q, r)`, the operand at
    `(0, q, r)`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A stack `[a, b, c]` flattened to a matrix `[m, c]` reads, at `(k, r)` with `k = p·b + q`, the stack at `(p, q, r)`. -/
theorem shapeCast_abc_mc_apply {a b c m : ℕ} (x : (⟨3, ![a, b, c]⟩ : Shape).Idx → α)
    (h : (⟨3, ![a, b, c]⟩ : Shape).ShapeCasts ⟨2, ![m, c]⟩) (k : Fin m) (r : Fin c) (p : Fin a) (q : Fin b)
    (hk : k.val = p.val * b + q.val) :
    shapeCast ⟨2, ![m, c]⟩ x h (ix2 k r) = x (ix3 p q r) :=
  shapeCast_apply x h _ _ (by
    rw [Shape.rowMajor_val_three, Shape.rowMajor_val_two]
    show (p.val * b + q.val) * c + r.val = k.val * c + r.val
    rw [hk])

/-- A matrix `[m, c]` cut into a stack `[a, b, c]` reads, at `(p, q, r)`, the matrix at `(k, r)` with `k = p·b + q`. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (r : Fin c) (k : Fin m)
    (hk : k.val = p.val * b + q.val) :
    shapeCast ⟨3, ![a, b, c]⟩ x h (ix3 p q r) = x (ix2 k r) :=
  shapeCast_apply x h _ _ (by
    rw [Shape.rowMajor_val_three, Shape.rowMajor_val_two]
    show k.val * c + r.val = (p.val * b + q.val) * c + r.val
    rw [hk])

end Cert.LibFlattenRows
-- ==== Proof.KernelPayload.lean ====
/-
  The kernel body's arithmetic on one block of 128 molecules, read at an index.

  Each non-pointwise operation of the body is read at coordinates: the batched product of a molecule's adjacency matrix
  with its atoms' rows, the product of the flattened rows with layer two's weights, the two products of the last linear
  map, the two lane sums (the adjacency matrix's column sums and the sum over the atoms), the flattening of
  (molecule, atom) to one row axis and back, and the two broadcasts (the bias along the rows, the column sums along the
  features).  Composed, the block's result at (p, c) is the specification's `outK` of the block's arrays, less the bias.
-/
import proofs.«178164_j63797444214829_2_alg».proof.Proof.Gen.KernelIdeal.Skeleton
import proofs.«178164_j63797444214829_2_alg».proof.Proof.Spec
import proofs.«178164_j63797444214829_2_alg».proof.Proof.LibFlattenRows
import Idealize.ShloMosaic.Lib.ValueIdx
import Idealize.ShloMosaic.Lib.ValueLayout
import Idealize.ShloMosaic.Lib.Pipeline.Value
import Idealize.ShloMosaic.PureOps.Ideal.Laws

noncomputable section

namespace Cert.Gnn.Payload

open Cert.KernelIdeal Cert.KernelIdeal.Gen Idealize.ShloMosaic Idealize.ShloMosaic.ValueIdx Cert.LibFlattenRows

/-- A matrix product into the zero accumulator, contracted over one axis of extent `K`, is the sum over `k : Fin K` of
    the operands' products, the operands read where the dimension numbers say (`hl`, `hr`). -/
theorem matmul_zero_fin {sl sr so : Shape} {φ₁ φ₂ : FTy} (d : DotDims sl sr so) (K : ℕ) (hrk : d.contr.rank = 1)
    (hs : d.contr.size ⟨0, by omega⟩ = K) (lhs : FVec Ideal sl φ₁) (rhs : FVec Ideal sr φ₂) (j : so.Idx)
    (L : Fin K → sl.Idx) (R : Fin K → sr.Idx)
    (hl : ∀ k : Fin K, d.lhsIdx j ((contrEquiv1 d K hrk hs).symm k) = L k)
    (hr : ∀ k : Fin K, d.rhsIdx j ((contrEquiv1 d K hrk hs).symm k) = R k) :
    matmul d none lhs rhs (constant so .f32 0x00000000#32) j = ∑ k : Fin K, lhs (L k) * rhs (R k) := by
  simp only [matmul]
  rw [Ideal.matmul_constant_zero_apply, ← Equiv.sum_comp (contrEquiv1 d K hrk hs).symm]
  refine Finset.sum_congr rfl fun k _ => ?_
  rw [hl k, hr k]

/-! ## The four products -/

theorem mix_l0 (i : S128x64x70.Idx) (q : dot_S128x64x64_S128x64x70_S128x64x70_2_1_1_2_0_0.contr.Idx) :
    (dot_S128x64x64_S128x64x70_S128x64x70_2_1_1_2_0_0.lhsIdx i q 0).val = (i 0).val := by
  unfold DotDims.lhsIdx
  rw [dif_pos (show (0 : Fin S128x64x64.rank) ∈ dot_S128x64x64_S128x64x70_S128x64x70_2_1_1_2_0_0.lhsBatch by decide)]
  rfl
theorem mix_l1 (i : S128x64x70.Idx) (q : dot_S128x64x64_S128x64x70_S128x64x70_2_1_1_2_0_0.contr.Idx) :
    (dot_S128x64x64_S128x64x70_S128x64x70_2_1_1_2_0_0.lhsIdx i q 1).val = (i 1).val := by
  unfold DotDims.lhsIdx
  rw [dif_neg (show ¬(1 : Fin S128x64x64.rank) ∈ dot_S128x64x64_S128x64x70_S128x64x70_2_1_1_2_0_0.lhsBatch by decide),
    dif_pos (show (1 : Fin S128x64x64.rank) ∈ dot_S128x64x64_S128x64x70_S128x64x70_2_1_1_2_0_0.lhsNonContracting by decide)]
  rfl
theorem mix_l2 (i : S128x64x70.Idx) (q : dot_S128x64x64_S128x64x70_S128x64x70_2_1_1_2_0_0.contr.Idx) :
    (dot_S128x64x64_S128x64x70_S128x64x70_2_1_1_2_0_0.lhsIdx i q 2).val = (q ⟨0, by decide⟩).val :=
  dot_S128x64x64_S128x64x70_S128x64x70_2_1_1_2_0_0.lhsIdx_val_of_single rfl i q
theorem mix_r0 (i : S128x64x70.Idx) (q : dot_S128x64x64_S128x64x70_S128x64x70_2_1_1_2_0_0.contr.Idx) :
    (dot_S128x64x64_S128x64x70_S128x64x70_2_1_1_2_0_0.rhsIdx i q 0).val = (i 0).val := by
  unfold DotDims.rhsIdx
  rw [dif_pos (show (0 : Fin S128x64x70.rank) ∈ dot_S128x64x64_S128x64x70_S128x64x70_2_1_1_2_0_0.rhsBatch by decide)]
  rfl
theorem mix_r1 (i : S128x64x70.Idx) (q : dot_S128x64x64_S128x64x70_S128x64x70_2_1_1_2_0_0.contr.Idx) :
    (dot_S128x64x64_S128x64x70_S128x64x70_2_1_1_2_0_0.rhsIdx i q 1).val = (q ⟨0, by decide⟩).val :=
  dot_S128x64x64_S128x64x70_S128x64x70_2_1_1_2_0_0.rhsIdx_val_of_single rfl i q
theorem mix_r2 (i : S128x64x70.Idx) (q : dot_S128x64x64_S128x64x70_S128x64x70_2_1_1_2_0_0.contr.Idx) :
    (dot_S128x64x64_S128x64x70_S128x64x70_2_1_1_2_0_0.rhsIdx i q 2).val = (i 2).val := by
  unfold DotDims.rhsIdx
  rw [dif_neg (show ¬(2 : Fin S128x64x70.rank) ∈ dot_S128x64x64_S128x64x70_S128x64x70_2_1_1_2_0_0.rhsBatch by decide),
    dif_pos (show (2 : Fin S128x64x70.rank) ∈ dot_S128x64x64_S128x64x70_S128x64x70_2_1_1_2_0_0.rhsNonContracting by decide)]
  rfl

/-- The batched product: molecule `p`'s adjacency matrix times its atoms' rows. -/
theorem mix_apply (A : FVec Ideal S128x64x64 .bf16) (H : FVec Ideal S128x64x70 .bf16) (p : Fin 128) (n : Fin 64) (e : Fin 70) :
    matmul dot_S128x64x64_S128x64x70_S128x64x70_2_1_1_2_0_0 none A H (constant S128x64x70 .f32 0x00000000#32) (ix3 p n e)
      = ∑ j : Fin 64, A (ix3 p n j) * H (ix3 p j e) := by
  refine matmul_zero_fin dot_S128x64x64_S128x64x70_S128x64x70_2_1_1_2_0_0 64 rfl rfl A H (ix3 p n e)
    (fun j => ix3 p n j) (fun j => ix3 p j e) (fun k => ?_) (fun k => ?_)
  · have hk := contrEquiv1_symm_val dot_S128x64x64_S128x64x70_S128x64x70_2_1_1_2_0_0 64 rfl rfl k
    exact funext fun a => Fin.ext (by
      match a with
      | ⟨0, _⟩ => exact mix_l0 _ _
      | ⟨1, _⟩ => exact mix_l1 _ _
      | ⟨2, _⟩ => exact (mix_l2 _ _).trans hk)
  · have hk := contrEquiv1_symm_val dot_S128x64x64_S128x64x70_S128x64x70_2_1_1_2_0_0 64 rfl rfl k
    exact funext fun a => Fin.ext (by
      match a with
      | ⟨0, _⟩ => exact mix_r0 _ _
      | ⟨1, _⟩ => exact (mix_r1 _ _).trans hk
      | ⟨2, _⟩ => exact mix_r2 _ _)

section Plain
variable {R K C : ℕ}

theorem plain_l0 (i : (⟨2, ![R, C]⟩ : Shape).Idx) (q : (DotDims.plain R K C).contr.Idx) :
    ((DotDims.plain R K C).lhsIdx i q 0).val = (i 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem plain_l1 (i : (⟨2, ![R, C]⟩ : Shape).Idx) (q : (DotDims.plain R K C).contr.Idx) :
    ((DotDims.plain R K C).lhsIdx i q 1).val = (q ⟨0, (Nat.one_pos : 0 < (DotDims.plain R K C).contr.rank)⟩).val :=
  (DotDims.plain R K C).lhsIdx_val_of_single rfl i q
theorem plain_r0 (i : (⟨2, ![R, C]⟩ : Shape).Idx) (q : (DotDims.plain R K C).contr.Idx) :
    ((DotDims.plain R K C).rhsIdx i q 0).val = (q ⟨0, (Nat.one_pos : 0 < (DotDims.plain R K C).contr.rank)⟩).val :=
  (DotDims.plain R K C).rhsIdx_val_of_single rfl i q
theorem plain_r1 (i : (⟨2, ![R, C]⟩ : Shape).Idx) (q : (DotDims.plain R K C).contr.Idx) :
    ((DotDims.plain R K C).rhsIdx i q 1).val = (i 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- A plain product `[R, K] × [K, C]` read at (r, c): the sum over the shared axis. -/
theorem plain_apply {φ₁ φ₂ : FTy} (X : FVec Ideal ⟨2, ![R, K]⟩ φ₁) (W : FVec Ideal ⟨2, ![K, C]⟩ φ₂) (r : Fin R) (c : Fin C) :
    matmul (DotDims.plain R K C) none X W (constant ⟨2, ![R, C]⟩ .f32 0x00000000#32) (ix2 r c)
      = ∑ k : Fin K, X (ix2 r k) * W (ix2 k c) := by
  refine matmul_zero_fin (DotDims.plain R K C) K rfl rfl X W (ix2 r c) (fun k => ix2 r k) (fun k => ix2 k c)
    (fun k => ?_) (fun k => ?_)
  · have hk := contrEquiv1_symm_val (DotDims.plain R K C) K rfl rfl k
    exact funext fun a => Fin.ext (by
      match a with
      | ⟨0, _⟩ => exact plain_l0 _ _
      | ⟨1, _⟩ => exact (plain_l1 _ _).trans hk)
  · have hk := contrEquiv1_symm_val (DotDims.plain R K C) K rfl rfl k
    exact funext fun a => Fin.ext (by
      match a with
      | ⟨0, _⟩ => exact (plain_r0 _ _).trans hk
      | ⟨1, _⟩ => exact plain_r1 _ _)

end Plain

/-- Layer two's product on the flattened rows. -/
theorem lin2_apply (X : FVec Ideal S8192x70 .bf16) (W : FVec Ideal S70x70 .bf16) (k : Fin 8192) (d : Fin 70) :
    matmul dot_S8192x70_S70x70_S8192x70_1_0_0_1_n_n none X W (constant S8192x70 .f32 0x00000000#32) (ix2 k d)
      = ∑ e : Fin 70, X (ix2 k e) * W (ix2 e d) :=
  plain_apply (R := 8192) (K := 70) (C := 70) X W k d

/-- The last linear map's product with the pooled rows. -/
theorem proj1_apply (X : FVec Ideal S128x70 .bf16) (W : FVec Ideal S70x11 .bf16) (p : Fin 128) (c : Fin 11) :
    matmul dot_S128x70_S70x11_S128x11_1_0_0_1_n_n none X W (constant S128x11 .f32 0x00000000#32) (ix2 p c)
      = ∑ d : Fin 70, X (ix2 p d) * W (ix2 d c) :=
  plain_apply (R := 128) (K := 70) (C := 11) X W p c

/-- The last linear map's product with the descriptors. -/
theorem proj2_apply (X : FVec Ideal S128x7 .bf16) (W : FVec Ideal S7x11 .bf16) (p : Fin 128) (c : Fin 11) :
    matmul dot_S128x7_S7x11_S128x11_1_0_0_1_n_n none X W (constant S128x11 .f32 0x00000000#32) (ix2 p c)
      = ∑ k : Fin 7, X (ix2 p k) * W (ix2 k c) :=
  plain_apply (R := 128) (K := 7) (C := 11) X W p c

/-! ## The two lane sums -/

/-- The adjacency matrix's column sums: the sum over the row coordinate `n`. -/
theorem colsum_apply (A : FVec Ideal S128x64x64 .f32) (hφ : FKind.Formats .f32)
    (hacc : (0x00000000#32 : BitVec 32) = FKind.add.neutral .f32 hφ) (p : Fin 128) (m : Fin 64) :
    multiReduction .add [1] S128x64 A 0x00000000#32 reduces_S128x64x64_S128x64 hφ hacc (ix2 p m)
      = ∑ n : Fin 64, A (ix3 p n m) := by
  refine (Ideal.multiReduction_add_single A 0x00000000#32 reduces_S128x64x64_S128x64 hφ hacc (ix2 p m)).trans ?_
  refine Finset.sum_congr rfl fun n _ => congrArg A (funext fun a => Fin.ext ?_)
  match a with
  | ⟨0, _⟩ => rfl
  | ⟨1, _⟩ => rfl
  | ⟨2, _⟩ => rfl

/-- The sum over the atoms `m` of a molecule's rows. -/
theorem atomsum_apply (A : FVec Ideal S128x64x70 .f32) (hφ : FKind.Formats .f32)
    (hacc : (0x00000000#32 : BitVec 32) = FKind.add.neutral .f32 hφ) (p : Fin 128) (d : Fin 70) :
    multiReduction .add [1] S128x70 A 0x00000000#32 reduces_S128x64x70_S128x70 hφ hacc (ix2 p d)
      = ∑ m : Fin 64, A (ix3 p m d) := by
  refine (Ideal.multiReduction_add_single A 0x00000000#32 reduces_S128x64x70_S128x70 hφ hacc (ix2 p d)).trans ?_
  refine Finset.sum_congr rfl fun m _ => congrArg A (funext fun a => Fin.ext ?_)
  match a with
  | ⟨0, _⟩ => rfl
  | ⟨1, _⟩ => rfl
  | ⟨2, _⟩ => rfl

/-! ## The broadcasts -/

/-- The bias laid along every flattened row. -/
theorem bias_apply {α : Type} (v : S70.Idx → α) (k : Fin 8192) (d : Fin 70) :
    broadcastTo S8192x70 (shapeCast S1x70 v shapeCasts_S70_S1x70) broadcasts_S1x70_S8192x70 (ix2 k d) = v (ix1 d) := by
  refine (broadcastTo_apply _ broadcasts_S1x70_S8192x70 (ix2 k d) (ix2 (0 : Fin 1) d) (fun a => ?_)).trans ?_
  · match a with
    | ⟨0, _⟩ => rfl
    | ⟨1, _⟩ => rfl
  · exact shapeCast_apply v shapeCasts_S70_S1x70 (ix2 (0 : Fin 1) d) (ix1 d) (by
      rw [Shape.rowMajor_val_one, Shape.rowMajor_val_two]; show d.val = 0 * 70 + d.val; omega)

/-- The column sums laid along the features. -/
theorem colbcast_apply {α : Type} (v : S128x64.Idx → α) (p : Fin 128) (m : Fin 64) (d : Fin 70) :
    broadcastTo S128x64x70 (shapeCast S128x64x1 v shapeCasts_S128x64_S128x64x1) broadcasts_S128x64x1_S128x64x70 (ix3 p m d)
      = v (ix2 p m) := by
  refine (broadcastTo_apply _ broadcasts_S128x64x1_S128x64x70 (ix3 p m d) (ix3 p m (0 : Fin 1)) (fun a => ?_)).trans ?_
  · match a with
    | ⟨0, _⟩ => rfl
    | ⟨1, _⟩ => rfl
    | ⟨2, _⟩ => rfl
  · exact shapeCast_apply v shapeCasts_S128x64_S128x64x1 (ix3 p m (0 : Fin 1)) (ix2 p m) (by
      rw [Shape.rowMajor_val_two, Shape.rowMajor_val_three]; show p.val * 64 + m.val = (p.val * 64 + m.val) * 1 + 0; omega)

/-- The row of the flattened array that holds atom `m` of molecule `p`. -/
def flat (p : Fin 128) (m : Fin 64) : Fin 8192 := ⟨p.val * 64 + m.val, by omega⟩

/-! ## The body's result on a block -/

/-- The body's result before the bias, at (p, c): the pooled row of molecule `p` (column sums first) through the
    pooled columns' weights, plus the descriptors through theirs. -/
theorem pay2_apply (v0 : Vec Ideal S128x64x64 .f32) (v2 : Vec Ideal S128x64x70 .bf16) (v5 : Vec Ideal S70x70 .f32)
    (v7 : Vec Ideal S70 .f32) (v22 : Vec Ideal S128x7 .f32) (v23 : Vec Ideal S70x11 .f32) (v26 : Vec Ideal S7x11 .f32)
    (p : Fin 128) (c : Fin 11) :
    k0_pay2 (F := Ideal) v0 v2 v5 v7 v22 v23 v26 (ix2 p c)
      = (∑ d : Fin 70, pooledK (B := 128) v0 v2 v5 v7 p d * v23 (ix2 d c)) + ∑ k : Fin 7, v22 (ix2 p k) * v26 (ix2 k c) := by
  unfold k0_pay2
  dsimp only
  refine congrArg₂ (fun a b : EReal => a + b) ?_ ?_
  · refine (proj1_apply _ _ p c).trans ?_
    refine Finset.sum_congr rfl fun d _ => ?_
    refine congrArg₂ (fun a b : EReal => a * b) ?_ ?_
    · refine (atomsum_apply _ (.inl rfl) rfl p d).trans ?_
      unfold pooledK
      refine Finset.sum_congr rfl fun m _ => ?_
      refine congrArg₂ (fun a b : EReal => a * b) ?_ ?_
      · refine (colbcast_apply _ p m d).trans ?_
        exact colsum_apply v0 (.inl rfl) rfl p m
      · refine (shapeCast_mc_abc_apply _ shapeCasts_S8192x70_S128x64x70 p m d (flat p m) rfl).trans ?_
        unfold hid
        refine congrArg₂ (fun a b : EReal => max a b) ?_ ?_
        · refine congrArg₂ (fun a b : EReal => a + b) ?_ ?_
          · refine (lin2_apply _ _ (flat p m) d).trans ?_
            refine Finset.sum_congr rfl fun e _ => ?_
            refine congrArg₂ (fun a b : EReal => a * b) ?_ rfl
            refine (shapeCast_abc_mc_apply _ shapeCasts_S128x64x70_S8192x70 (flat p m) e p m rfl).trans ?_
            refine (mix_apply _ _ p m e).trans ?_
            unfold msg
            refine Finset.sum_congr rfl fun j _ => ?_
            refine congrArg₂ (fun a b : EReal => a * b) rfl ?_
            exact congrFun (shapeCast_self v2 shapeCasts_S128x64x70_S128x64x70) _
          · exact bias_apply v7 (flat p m) d
        · exact Ideal.ofBits_zero_f32
    · exact congrFun (shapeCast_self v23 shapeCasts_S70x11_S70x11) _
  · refine (proj2_apply _ _ p c).trans ?_
    refine Finset.sum_congr rfl fun k _ => ?_
    refine congrArg₂ (fun a b : EReal => a * b) rfl ?_
    exact congrFun (shapeCast_self v26 shapeCasts_S7x11_S7x11) _

/-- The body's result on a block at (p, c) is the specification's output of the block's arrays. -/
theorem block_apply (v0 : Vec Ideal S128x64x64 .f32) (v2 : Vec Ideal S128x64x70 .bf16) (v5 : Vec Ideal S70x70 .f32)
    (v7 : Vec Ideal S70 .f32) (v22 : Vec Ideal S128x7 .f32) (v23 : Vec Ideal S70x11 .f32) (v26 : Vec Ideal S7x11 .f32)
    (v29 : Vec Ideal S11 .f32) (p : Fin 128) (c : Fin 11) :
    k0_pay2 (F := Ideal) v0 v2 v5 v7 v22 v23 v26 (ix2 p c) + v29 (ix1 c)
      = outK (B := 128) v0 v2 v22 v5 v7 v23 v26 v29 p c := by
  rw [pay2_apply]
  rfl

end Cert.Gnn.Payload

end
-- ==== Proof.KernelArray.lean ====
/-
  From blocks to the whole output array.

  The grid has 64 points; point t works on molecules 128·t … 128·t + 127.  The adjacency matrices, the atoms' rows, the
  descriptors and the output move with t along their leading axis; the weights and biases are read whole at every point.
  What point t writes back is the body's result on the point's blocks, which is the specification's output of the block's
  arrays at molecule p of the block; the network's tail reads one molecule only, so this is the output of the whole arrays
  at molecule 128·t + p.  The 64 blocks of 128 rows cover the 8192 rows, so the array ends holding that function.
-/
import proofs.«178164_j63797444214829_2_alg».proof.Proof.Gen.KernelIdeal.Value
import proofs.«178164_j63797444214829_2_alg».proof.Proof.KernelPayload
import proofs.«178164_j63797444214829_2_alg».proof.Proof.Spec

noncomputable section

namespace Cert.Gnn.KArray

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Gnn.Payload

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The output array as one function of the arrays the region finds. -/
def GK (c : Dev nD) : S8192x11.Idx → EReal := fun i =>
  outK (B := 8192) (V m c main_arg1) (V m c main_v12) (V m c main_arg2) (V m c main_arg6) (V m c main_arg7)
    (V m c main_v13) (V m c main_v14) (V m c main_arg9) (i 0) (i 1)

/-- The printed index maps, decided over the grid: the batched windows sit at block t of their leading axis, the others at
    block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-- Molecule `p` of point `t`'s block. -/
def molecule (t : Fin cfg0.N) (p : Fin 128) : Fin 8192 :=
  ⟨t.val * 128 + p.val, by have h := t.isLt; have hN : cfg0.N = 64 := N_0; omega⟩

/-! ## The input blocks read off their arrays -/

theorem blk_rows (c : Dev nD) (t : Fin cfg0.N) (p : Fin 128) (n : Fin 64) (d : Fin 70) :
    iblk m c 0 t (ix3 p n d) = V m c main_v12 (ix3 (molecule t p) n d) := by
  obtain ⟨e0, e1, e2, -⟩ := idx_facts t
  unfold iblk
  show V m c main_v12 (((cfg0.win 0).blk t).view.emb (ix3 p n d)) = _
  refine congrArg (V m c main_v12) (funext fun a => Fin.ext ?_)
  match a with
  | ⟨0, _⟩ => show win0_0.index t (0 : Fin 3) * 128 + 1 * p.val = t.val * 128 + p.val; omega
  | ⟨1, _⟩ => show win0_0.index t (1 : Fin 3) * 64 + 1 * n.val = n.val; omega
  | ⟨2, _⟩ => show win0_0.index t (2 : Fin 3) * 70 + 1 * d.val = d.val; omega

theorem blk_adj (c : Dev nD) (t : Fin cfg0.N) (p : Fin 128) (n : Fin 64) (k : Fin 64) :
    iblk m c 1 t (ix3 p n k) = V m c main_arg1 (ix3 (molecule t p) n k) := by
  obtain ⟨-, -, -, e0, e1, e2, -⟩ := idx_facts t
  unfold iblk
  show V m c main_arg1 (((cfg0.win 1).blk t).view.emb (ix3 p n k)) = _
  refine congrArg (V m c main_arg1) (funext fun a => Fin.ext ?_)
  match a with
  | ⟨0, _⟩ => show win0_1.index t (0 : Fin 3) * 128 + 1 * p.val = t.val * 128 + p.val; omega
  | ⟨1, _⟩ => show win0_1.index t (1 : Fin 3) * 64 + 1 * n.val = n.val; omega
  | ⟨2, _⟩ => show win0_1.index t (2 : Fin 3) * 64 + 1 * k.val = k.val; omega

theorem blk_sel (c : Dev nD) (t : Fin cfg0.N) (p : Fin 128) (k : Fin 7) :
    iblk m c 2 t (ix2 p k) = V m c main_arg2 (ix2 (molecule t p) k) := by
  obtain ⟨-, -, -, -, -, -, e0, e1, -⟩ := idx_facts t
  unfold iblk
  show V m c main_arg2 (((cfg0.win 2).blk t).view.emb (ix2 p k)) = _
  refine congrArg (V m c main_arg2) (funext fun a => Fin.ext ?_)
  match a with
  | ⟨0, _⟩ => show win0_2.index t (0 : Fin 2) * 128 + 1 * p.val = t.val * 128 + p.val; omega
  | ⟨1, _⟩ => show win0_2.index t (1 : Fin 2) * 7 + 1 * k.val = k.val; omega

theorem blk_w2 (c : Dev nD) (t : Fin cfg0.N) : (iblk m c 3 t : S70x70.Idx → EReal) = V m c main_arg6 := by
  obtain ⟨-, -, -, -, -, -, -, -, e0, e1, -⟩ := idx_facts t
  funext y
  unfold iblk
  show V m c main_arg6 (((cfg0.win 3).blk t).view.emb y) = _
  refine congrArg (V m c main_arg6) (funext fun a => Fin.ext ?_)
  match a with
  | ⟨0, _⟩ => show win0_3.index t (0 : Fin 2) * 70 + 1 * (y 0).val = (y 0).val; omega
  | ⟨1, _⟩ => show win0_3.index t (1 : Fin 2) * 70 + 1 * (y 1).val = (y 1).val; omega

theorem blk_b2 (c : Dev nD) (t : Fin cfg0.N) : (iblk m c 4 t : S70.Idx → EReal) = V m c main_arg7 := by
  obtain ⟨-, -, -, -, -, -, -, -, -, -, e0, -⟩ := idx_facts t
  funext y
  unfold iblk
  show V m c main_arg7 (((cfg0.win 4).blk t).view.emb y) = _
  refine congrArg (V m c main_arg7) (funext fun a => Fin.ext ?_)
  match a with
  | ⟨0, _⟩ => show win0_4.index t (0 : Fin 1) * 70 + 1 * (y 0).val = (y 0).val; omega

theorem blk_wp1 (c : Dev nD) (t : Fin cfg0.N) : (iblk m c 5 t : S70x11.Idx → EReal) = V m c main_v13 := by
  obtain ⟨-, -, -, -, -, -, -, -, -, -, -, e0, e1, -⟩ := idx_facts t
  funext y
  unfold iblk
  show V m c main_v13 (((cfg0.win 5).blk t).view.emb y) = _
  refine congrArg (V m c main_v13) (funext fun a => Fin.ext ?_)
  match a with
  | ⟨0, _⟩ => show win0_5.index t (0 : Fin 2) * 70 + 1 * (y 0).val = (y 0).val; omega
  | ⟨1, _⟩ => show win0_5.index t (1 : Fin 2) * 11 + 1 * (y 1).val = (y 1).val; omega

theorem blk_wp2 (c : Dev nD) (t : Fin cfg0.N) : (iblk m c 6 t : S7x11.Idx → EReal) = V m c main_v14 := by
  obtain ⟨-, -, -, -, -, -, -, -, -, -, -, -, -, e0, e1, -⟩ := idx_facts t
  funext y
  unfold iblk
  show V m c main_v14 (((cfg0.win 6).blk t).view.emb y) = _
  refine congrArg (V m c main_v14) (funext fun a => Fin.ext ?_)
  match a with
  | ⟨0, _⟩ => show win0_6.index t (0 : Fin 2) * 7 + 1 * (y 0).val = (y 0).val; omega
  | ⟨1, _⟩ => show win0_6.index t (1 : Fin 2) * 11 + 1 * (y 1).val = (y 1).val; omega

theorem blk_bp (c : Dev nD) (t : Fin cfg0.N) : (iblk m c 7 t : S11.Idx → EReal) = V m c main_arg9 := by
  obtain ⟨-, -, -, -, -, -, -, -, -, -, -, -, -, -, -, e0, -⟩ := idx_facts t
  funext y
  unfold iblk
  show V m c main_arg9 (((cfg0.win 7).blk t).view.emb y) = _
  refine congrArg (V m c main_arg9) (funext fun a => Fin.ext ?_)
  match a with
  | ⟨0, _⟩ => show win0_7.index t (0 : Fin 1) * 11 + 1 * (y 0).val = (y 0).val; omega

/-! ## One point -/

/-- What a point leaves at (p, q) of its block, for blocks that are molecule rows `b` of the whole arrays and the
    weights read whole: the whole arrays' output at (b, q). -/
theorem point_eq (P0 : Vec Ideal S128x64x64 .f32) (P1 : Vec Ideal S128x64x70 .bf16) (P2 : Vec Ideal S70x70 .f32)
    (P3 : Vec Ideal S70 .f32) (P4 : Vec Ideal S128x7 .f32) (P5 : Vec Ideal S70x11 .f32) (P6 : Vec Ideal S7x11 .f32)
    (P7 : Vec Ideal S11 .f32)
    (adj : S8192x64x64.Idx → EReal) (x : S8192x64x70.Idx → EReal) (sel : S8192x7.Idx → EReal)
    (w2 : S70x70.Idx → EReal) (b2 : S70.Idx → EReal) (wp1 : S70x11.Idx → EReal) (wp2 : S7x11.Idx → EReal) (bp : S11.Idx → EReal)
    (b : Fin 8192) (p : Fin 128) (q : Fin 11)
    (h0 : ∀ n k, P0 (ix3 p n k) = adj (ix3 b n k)) (h1 : ∀ n d, P1 (ix3 p n d) = x (ix3 b n d))
    (h4 : ∀ k, P4 (ix2 p k) = sel (ix2 b k))
    (h2 : P2 = w2) (h3 : P3 = b2) (h5 : P5 = wp1) (h6 : P6 = wp2) (h7 : P7 = bp) :
    E8 P0 P1 P2 P3 P4 P5 P6 P7 (ix2 p q) = outK adj x sel w2 b2 wp1 wp2 bp b q := by
  subst h2 h3 h5 h6 h7
  have e0 : ix8_0 (ix2 p q) = ix2 p q := funext fun a => Fin.ext (by
    match a with
    | ⟨0, _⟩ => rfl
    | ⟨1, _⟩ => rfl)
  have e1 : ix8_1 (ix2 p q) = ix1 q := funext fun a => Fin.ext (by
    match a with
    | ⟨0, _⟩ => rfl)
  show k0_pay2 (F := Ideal) P0 P1 P2 P3 P4 P5 P6 (ix8_0 (ix2 p q)) + P7 (ix8_1 (ix2 p q)) = _
  rw [e0, e1]
  exact (block_apply P0 P1 P2 P3 P4 P5 P6 P7 p q).trans (outK_row P5 P6 P7 b p h0 h1 h4 q)

/-! ## The array -/

/-- What point `t` writes back is block `t` of `GK`. -/
theorem flushed_eq (c : Dev nD) (t : Fin cfg0.N) :
    (dats m 0 c).flushed 8 t = ((cfg0.win 8).blk t).view.read (Elt Ideal) (GK m c) := by
  refine (flushed8 m c t).trans ?_
  unfold out0_8
  simp only [View.ld_unit_zero (S := S128x64x64) hz3, View.ld_unit_zero (S := S128x64x70) hz3,
    View.ld_unit_zero (S := S70x70) hz2, View.ld_unit_zero (S := S70) hz1, View.ld_unit_zero (S := S128x7) hz2,
    View.ld_unit_zero (S := S70x11) hz2, View.ld_unit_zero (S := S7x11) hz2, View.ld_unit_zero (S := S11) hz1]
  obtain ⟨-, -, -, -, -, -, -, -, -, -, -, -, -, -, -, -, o0, o1⟩ := idx_facts t
  funext y
  obtain ⟨p, q, rfl⟩ : ∃ (p : Fin 128) (q : Fin 11), y = ix2 p q := ⟨y 0, y 1, eq_ix2 y⟩
  have hemb : ((cfg0.win 8).blk t).view.emb (ix2 p q) = ix2 (molecule t p) q := funext fun a => Fin.ext (by
    match a with
    | ⟨0, _⟩ => show win0_8.index t (0 : Fin 2) * 128 + 1 * p.val = t.val * 128 + p.val; omega
    | ⟨1, _⟩ => show win0_8.index t (1 : Fin 2) * 11 + 1 * q.val = q.val; omega)
  refine Eq.trans ?_ (congrArg (GK m c) hemb.symm)
  refine (canon8_eq (iblk m c 1 t) (iblk m c 0 t) (iblk m c 3 t) (iblk m c 4 t) (iblk m c 2 t) (iblk m c 5 t) (iblk m c 6 t)
    (iblk m c 7 t) (ix2 p q)).trans ?_
  exact point_eq _ _ _ _ _ _ _ _ (V m c main_arg1) (V m c main_v12) (V m c main_arg2) (V m c main_arg6) (V m c main_arg7)
    (V m c main_v13) (V m c main_v14) (V m c main_arg9) (molecule t p) p q
    (fun n k => blk_adj m c t p n k) (fun n d => blk_rows m c t p n d) (fun k => blk_sel m c t p k)
    (blk_w2 m c t) (blk_b2 m c t) (blk_wp1 m c t) (blk_wp2 m c t) (blk_bp m c t)

/-- An index of the array is in point `t`'s block iff each coordinate is in the block's range on its axis. -/
theorem mem_blk (t : Fin cfg0.N) (i : S8192x11.Idx) :
    i ∈ ((cfg0.win 8).blk t).view.set ↔ ∀ a : Fin 2, win0_8.index t a * S128x11.size a ≤ (i a).val
      ∧ (i a).val < win0_8.index t a * S128x11.size a + S128x11.size a := by
  show i ∈ ((View.whole main_v15).slice (win0_8.rect t)).set ↔ _
  rw [View.set_slice_whole, Rect.mem_set_unit]
  exact Iff.rfl

/-- Row r of the output is in the block of point r / 128. -/
theorem cover (i : S8192x11.Idx) : ∃ t : Fin cfg0.N, (cfg0.win 8).flush t = true ∧ i ∈ ((cfg0.win 8).blk t).view.set := by
  have hi0 : (i 0).val < 8192 := (i 0).isLt
  have hi1 : (i 1).val < 11 := (i 1).isLt
  have hN : cfg0.N = 64 := N_0
  have ht : (i 0).val / 128 < cfg0.N := by omega
  obtain ⟨-, -, -, -, -, -, -, -, -, -, -, -, -, -, -, -, o0, o1⟩ := idx_facts ⟨(i 0).val / 128, ht⟩
  refine ⟨⟨(i 0).val / 128, ht⟩, flush0_8 _, ?_⟩
  rw [mem_blk]
  intro a
  match a with
  | ⟨0, _⟩ =>
    show win0_8.index ⟨(i 0).val / 128, ht⟩ (0 : Fin 2) * 128 ≤ (i 0).val
      ∧ (i 0).val < win0_8.index ⟨(i 0).val / 128, ht⟩ (0 : Fin 2) * 128 + 128
    have : win0_8.index ⟨(i 0).val / 128, ht⟩ (0 : Fin 2) = (i 0).val / 128 := o0
    omega
  | ⟨1, _⟩ =>
    show win0_8.index ⟨(i 0).val / 128, ht⟩ (1 : Fin 2) * 11 ≤ (i 1).val
      ∧ (i 1).val < win0_8.index ⟨(i 0).val / 128, ht⟩ (1 : Fin 2) * 11 + 11
    omega

/-- The output array after the run is `GK`. -/
theorem final (c : Dev nD) : (dats m 0 c).arrAt 8 cfg0.N = GK m c :=
  (dats m 0 c).arrAt_eq_of_cover 8 (GK m c) (fun t _ => flushed_eq m c t) (cover)

/-- The kernel's run: the result array ends at `GK`, the arguments unchanged. -/
theorem run : θ_run defs (onTc (τ := τ) (main (F := Ideal))) ⟨m, fun _ => 0, ρ⟩ fun r => ∀ c : Dev nD,
      r.2.mem ((c : Thread nD τ).loc main_v15) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.Gnn.KArray

end
-- ==== Proof.Gather.lean ====
/-
  A row gather read at an index.  The operand is a table of 10000 rows of 70 columns; the start indices are one integer per
  (molecule, atom); the result's entry (b, n, c) is the table's entry (r, c), where r is the start index of (b, n) read
  signed and clamped into [0, 9999].  The row read depends on (b, n) only and the column is kept, so a function applied
  row by row to the table commutes with the gather.
-/
import Idealize.ShloMosaic.PureOps.ShapeOps
import Idealize.ShloMosaic.Lib.ValueIdx

noncomputable section

namespace Cert.Gnn

open Idealize.ShloMosaic Idealize.ShloMosaic.ValueIdx

/-- The dimension numbers of a row gather from a `[10000, 70]` table at `[8192, 64, 1]` start indices. -/
abbrev rowDims (wf : GatherDims.WF ⟨2, ![10000, 70]⟩ ⟨3, ![8192, 64, 1]⟩ ⟨3, ![8192, 64, 70]⟩ [2] [0] [] [0] [] 2 ![1, 70]) :
    GatherDims ⟨2, ![10000, 70]⟩ ⟨3, ![8192, 64, 1]⟩ ⟨3, ![8192, 64, 70]⟩ where
  offsetDims := [2]
  collapsedSliceDims := [0]
  operandBatchingDims := []
  startIndicesBatchingDims := []
  startIndexMap := [0]
  indexVectorDim := 2
  sliceSizes := ![1, 70]
  wf := wf

/-- The row gather at (b, n, c): the table at (the clamped start index of (b, n), c). -/
theorem gather_rows_apply {α : Type} {w : Nat}
    (wf : GatherDims.WF ⟨2, ![10000, 70]⟩ ⟨3, ![8192, 64, 1]⟩ ⟨3, ![8192, 64, 70]⟩ [2] [0] [] [0] [] 2 ![1, 70])
    (x : (⟨2, ![10000, 70]⟩ : Shape).Idx → α) (idx : IVec ⟨3, ![8192, 64, 1]⟩ w) (b : Fin 8192) (n : Fin 64) (c : Fin 70) :
    Host.gather (rowDims wf) x idx (ix3 b n c)
      = x (ix2 (⟨min (idx (ix3 b n 0)).toInt.toNat 9999, by omega⟩ : Fin 10000) c) := by
  unfold Host.gather
  congr 1
  funext a
  refine Fin.ext ?_
  match a with
  | ⟨0, _⟩ =>
    show (rowDims wf).start (ix3 b n c) idx 0 + (rowDims wf).batchCoord (ix3 b n c) 0 + (rowDims wf).offCoord (ix3 b n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hsi : (rowDims wf).siIdx (ix3 b n c) ⟨List.idxOf (0 : Fin 2) (rowDims wf).startIndexMap,
        List.idxOf_lt_length_iff.2 (List.mem_singleton.mpr rfl)⟩ = ix3 b n 0 := by
      funext e; refine Fin.ext ?_
      match e with
      | ⟨0, _⟩ => rfl
      | ⟨1, _⟩ => rfl
      | ⟨2, _⟩ => rfl
    rw [hsi]
    rfl
  | ⟨1, _⟩ =>
    show (rowDims wf).start (ix3 b n c) idx 1 + (rowDims wf).batchCoord (ix3 b n c) 1 + (rowDims wf).offCoord (ix3 b n c) 1 = _
    rw [GatherDims.batchCoord_eq_zero _ _ _ List.not_mem_nil]
    unfold GatherDims.start
    rw [dif_neg (show ¬ (1 : Fin 2) ∈ ([0] : List (Fin 2)) from by decide)]
    unfold GatherDims.offCoord
    rw [dif_pos ((GatherDims.mem_sKept (rowDims wf) 1).mpr ⟨(by decide : (1 : Fin 2) ∉ ([0] : List (Fin 2))), List.not_mem_nil⟩)]
    simp only [Nat.zero_add]
    rfl

end Cert.Gnn

end
-- ==== Proof.LibHostColumn.lean ====
/-
  Host-side row and column forms of the layout operations, read at an index given by its coordinates.

  A vector of length b becomes the one-row array [1, b] (the vector laid along axis 1); the one-row array is
  repeated down a rows to [a, b]; and a column [a, 1] is re-laid as the vector of length a. Each lemma reads the
  result at its coordinates: the row forms keep the column coordinate, the column form keeps the row coordinate.
-/
import Idealize.ShloMosaic.Lib.Pipeline.Value
import Idealize.ShloMosaic.Lib.ValueIdx

noncomputable section

namespace Cert.LibHostColumn

open Idealize.ShloMosaic Idealize.ShloMosaic.ValueIdx

variable {α : Type}

/-- A vector of length b laid along axis 1 of [1, b]: the entry at (z, c) is the vector's entry c. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (z : Fin 1) (c : Fin b) :
    broadcastInDim ⟨2, ![1, b]⟩ (![1] : Fin 1 → Fin 2) h x (ix2 z c) = x (ix1 c) := by
  refine broadcastInDim_apply _ h x (ix2 z c) (ix1 c) fun ax => ?_
  match ax with
  | ⟨0, _⟩ =>
    show c.val = if b = 1 then 0 else c.val
    split
    · have := c.isLt; omega
    · rfl

/-- A one-row array [1, b] repeated down a rows (axes kept in place): the entry at (p, c) is the row's entry c. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column [a, 1] re-laid as the vector of length a: the entry i is the column's entry of row i (the
    row-major position of (i, 0) in [a, 1] is i * 1 + 0 = i). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibHostColumn

end
-- ==== Proof.KernelHost.lean ====
/-
  What the kernel's region finds in the three arrays the host operations before it write: the atoms' rows (layer one
  applied to the whole embedding table, then the row gather by the atoms' start indices) and the two row ranges of the
  last linear map's weights.  Each is first stated as the host operations' term of the argument arrays, then read at an
  index: an atom's row is layer one of the table row its clamped start index names (the gather keeps the column and picks
  the row), and the two slices read the joined weights at rows d and 70 + k.
-/
import proofs.«178164_j63797444214829_2_alg».proof.Proof.Gen.KernelIdeal.Frame
import proofs.«178164_j63797444214829_2_alg».proof.Proof.Spec
import proofs.«178164_j63797444214829_2_alg».proof.Proof.Gather
import proofs.«178164_j63797444214829_2_alg».proof.Proof.LibHostColumn
import proofs.«178164_j63797444214829_2_alg».proof.Proof.KernelPayload
import Idealize.ShloMosaic.Lib.StableHlo.Run

noncomputable section

namespace Cert.Gnn.KHost

open Cert.KernelIdeal Cert.KernelIdeal.Gen Idealize.ShloMosaic Idealize.ShloMosaic.TcCoe Idealize.SL.Sem
open Idealize.ShloMosaic.ValueIdx Cert.Gnn.Payload

/-- The start indices as the gather takes them: a negative index is shifted up by the table's length, and the
    array gets a trailing unit axis. -/
def startIdx (a : IVec S8192x64 32) : IVec S8192x64x1 32 :=
  broadcastInDim S8192x64x1 ![0, 1] bcast_S8192x64_S8192x64x1_0_1
    (select (cmpi .slt a (broadcastInDim S8192x64 ![] bcast_S_S8192x64 (constantI S_ 32 0#32)))
      (addi a (broadcastInDim S8192x64 ![] bcast_S_S8192x64 (constantI S_ 32 10000#32))) a)

/-- Layer one on the whole embedding table. -/
def table (E : FVec Ideal S10000x70 .f32) (w1 : FVec Ideal S70x70 .f32) (b1 : FVec Ideal S70 .f32) : FVec Ideal S10000x70 .bf16 :=
  truncf .bf16 (maximumf
    (addf (Host.dotGeneral dot_S10000x70_S70x70_S10000x70_1_0_0_1_n_n none E w1)
      (broadcastInDim S10000x70 ![0, 1] bcast_S1x70_S10000x70_0_1 (broadcastInDim S1x70 ![1] bcast_S70_S1x70_1 b1)))
    (broadcastInDim S10000x70 ![] bcast_S_S10000x70 (constant (F := Ideal) S_ .f32 0x00000000#32))) bitsLt_bf16_f32

/-- The atoms' rows: the table gathered by the start indices. -/
def rows (a : IVec S8192x64 32) (E : FVec Ideal S10000x70 .f32) (w1 : FVec Ideal S70x70 .f32) (b1 : FVec Ideal S70 .f32) :
    FVec Ideal S8192x64x70 .bf16 :=
  Host.gather gather_S10000x70_S8192x64x1_S8192x64x70_2_0_n_n_0_2_170 (table E w1 b1) (startIdx a)

variable (m : (ℓ : Loc nD τ sig) → Buf (Elt Ideal) ℓ)

/-- The region finds the atoms' rows in its first window's array. -/
theorem V_rows (c : Dev nD) :
    (V m c main_v12 : S8192x64x70.Idx → EReal)
      = rows (m ((c : Thread nD τ).loc main_arg0)) (m ((c : Thread nD τ).loc main_arg3)) (m ((c : Thread nD τ).loc main_arg4))
          (m ((c : Thread nD τ).loc main_arg5)) := by
  unfold rows table startIdx
  dsimp only [V]
  simp only [hostOps0, hostOps0_1, hostOps0_2, List.flatten_cons, List.flatten_nil, List.append_nil, List.cons_append,
    List.nil_append]
  after_results_simp <;> rfl

/-- The region finds rows 0–69 of the joined weights in its sixth window's array. -/
theorem V_wp1 (c : Dev nD) :
    (V m c main_v13 : S70x11.Idx → EReal)
      = extractStridedSlice S70x11 ![0, 0] (m ((c : Thread nD τ).loc main_arg8)) slices_S77x11_S70x11_0_0 := by
  dsimp only [V]
  simp only [hostOps0, hostOps0_1, hostOps0_2, List.flatten_cons, List.flatten_nil, List.append_nil, List.cons_append,
    List.nil_append]
  after_results

/-- The region finds rows 70–76 of the joined weights in its seventh window's array. -/
theorem V_wp2 (c : Dev nD) :
    (V m c main_v14 : S7x11.Idx → EReal)
      = extractStridedSlice S7x11 ![70, 0] (m ((c : Thread nD τ).loc main_arg8)) slices_S77x11_S7x11_70_0 := by
  dsimp only [V]
  simp only [hostOps0, hostOps0_1, hostOps0_2, List.flatten_cons, List.flatten_nil, List.append_nil, List.cons_append,
    List.nil_append]
  after_results

/-! ## Read at an index -/

/-- The host's plain product read at (r, c). -/
theorem hostdot_plain_apply {R K C : ℕ} {φ₁ φ₂ : FTy} (X : FVec Ideal ⟨2, ![R, K]⟩ φ₁) (W : FVec Ideal ⟨2, ![K, C]⟩ φ₂)
    (r : Fin R) (c : Fin C) :
    Host.dotGeneral (DotDims.plain R K C) none X W (ix2 r c) = ∑ k : Fin K, X (ix2 r k) * W (ix2 k c) := by
  simp only [Host.dotGeneral]
  rw [Ideal.dotGeneral_apply, ← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx (ix2 r c) ((contrEquiv1 (DotDims.plain R K C) K rfl rfl).symm k) = ix2 r k :=
    funext fun a => Fin.ext (by
      match a with
      | ⟨0, _⟩ => exact plain_l0 _ _
      | ⟨1, _⟩ => exact (plain_l1 _ _).trans hk)
  have er : (DotDims.plain R K C).rhsIdx (ix2 r c) ((contrEquiv1 (DotDims.plain R K C) K rfl rfl).symm k) = ix2 k c :=
    funext fun a => Fin.ext (by
      match a with
      | ⟨0, _⟩ => exact (plain_r0 _ _).trans hk
      | ⟨1, _⟩ => exact plain_r1 _ _)
  rw [el, er]

/-- Layer one on the table, at (r, e), is the specification's `hid1`. -/
theorem table_apply (E : FVec Ideal S10000x70 .f32) (w1 : FVec Ideal S70x70 .f32) (b1 : FVec Ideal S70 .f32)
    (r : Fin 10000) (e : Fin 70) : table E w1 b1 (ix2 r e) = hid1 E w1 b1 r e := by
  unfold table hid1
  refine congrArg₂ (fun a b : EReal => max a b) ?_ ?_
  · refine congrArg₂ (fun a b : EReal => a + b) ?_ ?_
    · exact hostdot_plain_apply (R := 10000) (K := 70) (C := 70) E w1 r e
    · refine (Cert.LibHostColumn.broadcastInDim_1b_ab_apply _ bcast_S1x70_S10000x70_0_1 r e).trans ?_
      exact Cert.LibHostColumn.broadcastInDim_b_1b_apply b1 bcast_S70_S1x70_1 (0 : Fin 1) e
  · refine (broadcastInDim_apply _ bcast_S_S10000x70 _ (ix2 r e) ix0 (fun a => a.elim0)).trans ?_
    exact Ideal.ofBits_zero_f32

/-- An atom's row, at (b, n, d): layer one of the table row its clamped start index names. -/
theorem rows_apply (a : IVec S8192x64 32) (E : FVec Ideal S10000x70 .f32) (w1 : FVec Ideal S70x70 .f32) (b1 : FVec Ideal S70 .f32)
    (b : Fin 8192) (n : Fin 64) (d : Fin 70) :
    rows a E w1 b1 (ix3 b n d) = hid1 E w1 b1 (rowOf (startIdx a) b n) d := by
  unfold rows
  refine (gather_rows_apply gather_S10000x70_S8192x64x1_S8192x64x70_2_0_n_n_0_2_170.wf (table E w1 b1) (startIdx a) b n d).trans ?_
  exact table_apply E w1 b1 _ d

/-- Rows 0–69 of the joined weights. -/
theorem wp1_apply {α : Type} (wp : S77x11.Idx → α) (d : Fin 70) (c : Fin 11) :
    extractStridedSlice S70x11 ![0, 0] wp slices_S77x11_S70x11_0_0 (ix2 d c) = wp (ix2 (⟨d.val, by omega⟩ : Fin 77) c) :=
  extractStridedSlice_apply _ wp slices_S77x11_S70x11_0_0 (ix2 d c) (ix2 (⟨d.val, by omega⟩ : Fin 77) c) (fun a => by
    match a with
    | ⟨0, _⟩ => show d.val = 0 + d.val; omega
    | ⟨1, _⟩ => show c.val = 0 + c.val; omega)

/-- Rows 70–76 of the joined weights. -/
theorem wp2_apply {α : Type} (wp : S77x11.Idx → α) (k : Fin 7) (c : Fin 11) :
    extractStridedSlice S7x11 ![70, 0] wp slices_S77x11_S7x11_70_0 (ix2 k c) = wp (ix2 (⟨70 + k.val, by omega⟩ : Fin 77) c) :=
  extractStridedSlice_apply _ wp slices_S77x11_S7x11_70_0 (ix2 k c) (ix2 (⟨70 + k.val, by omega⟩ : Fin 77) c) (fun a => by
    match a with
    | ⟨0, _⟩ => show 70 + k.val = 70 + k.val; rfl
    | ⟨1, _⟩ => show c.val = 0 + c.val; omega)

end Cert.Gnn.KHost

end
-- ==== Proof.RefValue.lean ====
/-
  The reference program read at an index is the network's output `outR`.

  The program is read one operation at a time, each at an index given by its coordinates.  The embedding table gathered
  by rows, taken through layer one's linear map, bias and rectifier, is `hid1` of the row the atom's clamped start
  index names; this is the array `feat` the rest of the network reads.  Mixing by the adjacency matrix is `msg`,
  layer two's linear map, bias and rectifier is `hid`, mixing again and summing over the atoms (from the initial
  value zero) is `pooledR`, joining with the seven descriptors along the columns is `joined`, and the last linear map
  with its bias is `outR`.  Every step is a re-indexing of a finite sum or the reading of a layout operation; no
  finiteness of the entries is needed.
-/
import proofs.«178164_j63797444214829_2_alg».proof.Proof.Gen.ReferenceIdeal.Read
import proofs.«178164_j63797444214829_2_alg».proof.Proof.Spec
import proofs.«178164_j63797444214829_2_alg».proof.Proof.Gather
import Idealize.ShloMosaic.Lib.ValueIdx
import Idealize.ShloMosaic.Lib.Pipeline.Value
import Idealize.ShloMosaic.PureOps.Ideal.Laws

noncomputable section

namespace Cert.Gnn.RefValue

open Idealize.ShloMosaic Idealize.ShloMosaic.ValueIdx Cert.ReferenceIdeal Cert.ReferenceIdeal.Read Cert.Gnn

/-! ## The index functions of the sums, at coordinates -/

theorem lidx7 (b : Fin 8192) (n : Fin 64) (e k : Fin 70) : lidx_main_v7 (ix3 b n e) k = ix3 b n k :=
  funext fun a => Fin.ext (by match a with | ⟨0, _⟩ => rfl | ⟨1, _⟩ => rfl | ⟨2, _⟩ => rfl)
theorem ridx7 (b : Fin 8192) (n : Fin 64) (e k : Fin 70) : ridx_main_v7 (ix3 b n e) k = ix2 k e :=
  funext fun a => Fin.ext (by match a with | ⟨0, _⟩ => rfl | ⟨1, _⟩ => rfl)
theorem lidx12 (b : Fin 8192) (n : Fin 64) (d : Fin 70) (m : Fin 64) : lidx_main_v12 (ix3 b n d) m = ix3 b n m :=
  funext fun a => Fin.ext (by match a with | ⟨0, _⟩ => rfl | ⟨1, _⟩ => rfl | ⟨2, _⟩ => rfl)
theorem ridx12 (b : Fin 8192) (n : Fin 64) (d : Fin 70) (m : Fin 64) : ridx_main_v12 (ix3 b n d) m = ix3 b m d :=
  funext fun a => Fin.ext (by match a with | ⟨0, _⟩ => rfl | ⟨1, _⟩ => rfl | ⟨2, _⟩ => rfl)
theorem lidx13 (b : Fin 8192) (n : Fin 64) (e k : Fin 70) : lidx_main_v13 (ix3 b n e) k = ix3 b n k :=
  funext fun a => Fin.ext (by match a with | ⟨0, _⟩ => rfl | ⟨1, _⟩ => rfl | ⟨2, _⟩ => rfl)
theorem ridx13 (b : Fin 8192) (n : Fin 64) (e k : Fin 70) : ridx_main_v13 (ix3 b n e) k = ix2 k e :=
  funext fun a => Fin.ext (by match a with | ⟨0, _⟩ => rfl | ⟨1, _⟩ => rfl)
theorem lidx18 (b : Fin 8192) (n : Fin 64) (d : Fin 70) (m : Fin 64) : lidx_main_v18 (ix3 b n d) m = ix3 b n m :=
  funext fun a => Fin.ext (by match a with | ⟨0, _⟩ => rfl | ⟨1, _⟩ => rfl | ⟨2, _⟩ => rfl)
theorem ridx18 (b : Fin 8192) (n : Fin 64) (d : Fin 70) (m : Fin 64) : ridx_main_v18 (ix3 b n d) m = ix3 b m d :=
  funext fun a => Fin.ext (by match a with | ⟨0, _⟩ => rfl | ⟨1, _⟩ => rfl | ⟨2, _⟩ => rfl)
theorem idx19 (b : Fin 8192) (d : Fin 70) (n : Fin 64) : idx_main_v19 (ix2 b d) n = ix3 b n d :=
  funext fun a => Fin.ext (by match a with | ⟨0, _⟩ => rfl | ⟨1, _⟩ => rfl | ⟨2, _⟩ => rfl)
theorem lidx21 (b : Fin 8192) (c : Fin 11) (k : Fin 77) : lidx_main_v21 (ix2 b c) k = ix2 b k :=
  funext fun a => Fin.ext (by match a with | ⟨0, _⟩ => rfl | ⟨1, _⟩ => rfl)
theorem ridx21 (b : Fin 8192) (c : Fin 11) (k : Fin 77) : ridx_main_v21 (ix2 b c) k = ix2 k c :=
  funext fun a => Fin.ext (by match a with | ⟨0, _⟩ => rfl | ⟨1, _⟩ => rfl)

/-! ## The broadcast biases and the zero constants -/

section Stages
variable (x0 : (⟨S8192x64, .i32⟩ : BufTy).Contents (Elt Ideal)) (x1 : (⟨S8192x64x64, .f32⟩ : BufTy).Contents (Elt Ideal)) (x2 : (⟨S8192x7, .f32⟩ : BufTy).Contents (Elt Ideal))
  (x3 : (⟨S10000x70, .f32⟩ : BufTy).Contents (Elt Ideal)) (x4 : (⟨S70x70, .f32⟩ : BufTy).Contents (Elt Ideal)) (x5 : (⟨S70, .f32⟩ : BufTy).Contents (Elt Ideal))
  (x6 : (⟨S70x70, .f32⟩ : BufTy).Contents (Elt Ideal)) (x7 : (⟨S70, .f32⟩ : BufTy).Contents (Elt Ideal)) (x8 : (⟨S77x11, .f32⟩ : BufTy).Contents (Elt Ideal)) (x9 : (⟨S11, .f32⟩ : BufTy).Contents (Elt Ideal))

/-- Layer one's bias, broadcast over molecules and atoms, reads the bias at the column. -/
theorem v9_apply (b : Fin 8192) (n : Fin 64) (e : Fin 70) : val_main_v9 (F := Ideal) x5 (ix3 b n e) = x5 (ix1 e) := by
  rw [val_main_v9_apply, val_main_v8_apply]
  exact congrArg x5 (funext fun a => Fin.ext (by match a with | ⟨0, _⟩ => rfl))

/-- Layer two's bias, broadcast over molecules and atoms, reads the bias at the column. -/
theorem v15_apply (b : Fin 8192) (n : Fin 64) (e : Fin 70) : val_main_v15 (F := Ideal) x7 (ix3 b n e) = x7 (ix1 e) := by
  rw [val_main_v15_apply, val_main_v14_apply]
  exact congrArg x7 (funext fun a => Fin.ext (by match a with | ⟨0, _⟩ => rfl))

/-- The last bias, broadcast over molecules, reads the bias at the column. -/
theorem v23_apply (b : Fin 8192) (c : Fin 11) : val_main_v23 (F := Ideal) x9 (ix2 b c) = x9 (ix1 c) := by
  rw [val_main_v23_apply, val_main_v22_apply]
  exact congrArg x9 (funext fun a => Fin.ext (by match a with | ⟨0, _⟩ => rfl))

/-- The first rectifier's threshold is zero. -/
theorem relu0_apply (i : S8192x64x70.Idx) : val_main_call0_v0 (F := Ideal) i = (0 : EReal) := by
  rw [val_main_call0_v0_apply, val_main_call0_cst_apply]
  exact Ideal.ofBits_zero_f32

/-- The second rectifier's threshold is zero. -/
theorem relu1_apply (i : S8192x64x70.Idx) : val_main_call1_v0 (F := Ideal) i = (0 : EReal) := by
  rw [val_main_call1_v0_apply, val_main_call1_cst_apply]
  exact Ideal.ofBits_zero_f32

/-- The pooling sum's initial value is zero. -/
theorem cst_apply (i : S_.Idx) : val_main_cst (F := Ideal) i = (0 : EReal) := Ideal.ofBits_zero_f32

/-! ## Layer one -/

/-- The gathered table at (b, n, d): the table's row named by the atom's clamped start index, at column d. -/
theorem v6_apply (b : Fin 8192) (n : Fin 64) (d : Fin 70) :
    val_main_v6 (F := Ideal) x0 x3 (ix3 b n d) = x3 (ix2 (rowOf (val_main_v5 (F := Ideal) x0) b n) d) :=
  gather_rows_apply Cert.ReferenceIdeal.Gen.gather_S10000x70_S8192x64x1_S8192x64x70_2_0_n_n_0_2_170_wf x3
    (val_main_v5 (F := Ideal) x0) b n d

/-- Layer one's linear map on the gathered rows. -/
theorem v7_apply (b : Fin 8192) (n : Fin 64) (e : Fin 70) :
    val_main_v7 (F := Ideal) x0 x3 x4 (ix3 b n e)
      = ∑ d : Fin 70, x3 (ix2 (rowOf (val_main_v5 (F := Ideal) x0) b n) d) * x4 (ix2 d e) := by
  refine (val_main_v7_apply x0 x3 x4 (ix3 b n e)).trans ?_
  refine Finset.sum_congr rfl fun k _ => ?_
  rw [lidx7, ridx7, v6_apply]

/-- Layer one's output: `hid1` of the atom's table row. -/
theorem v11_apply (b : Fin 8192) (n : Fin 64) (e : Fin 70) :
    val_main_v11 (F := Ideal) x0 x3 x4 x5 (ix3 b n e) = hid1 x3 x4 x5 (rowOf (val_main_v5 (F := Ideal) x0) b n) e := by
  show max (val_main_v7 (F := Ideal) x0 x3 x4 (ix3 b n e) + val_main_v9 (F := Ideal) x5 (ix3 b n e))
      (val_main_call0_v0 (F := Ideal) (ix3 b n e)) = _
  rw [v7_apply, v9_apply, relu0_apply]
  rfl

/-- Layer one's output as an array over (molecule, atom, column). -/
abbrev feat : (⟨3, ![8192, 64, 70]⟩ : Shape).Idx → EReal :=
  fun j => hid1 x3 x4 x5 (rowOf (val_main_v5 (F := Ideal) x0) (j 0) (j 1)) (j 2)

/-! ## Layer two and the pooled row -/

/-- The first mixing by the adjacency matrix. -/
theorem v12_apply (b : Fin 8192) (n : Fin 64) (d : Fin 70) :
    val_main_v12 (F := Ideal) x0 x1 x3 x4 x5 (ix3 b n d) = msg x1 (feat x0 x3 x4 x5) b n d := by
  refine (val_main_v12_apply x0 x1 x3 x4 x5 (ix3 b n d)).trans ?_
  refine Finset.sum_congr rfl fun m _ => ?_
  rw [lidx12, ridx12, v11_apply]

/-- Layer two's linear map on the mixed rows. -/
theorem v13_apply (b : Fin 8192) (n : Fin 64) (e : Fin 70) :
    val_main_v13 (F := Ideal) x0 x1 x3 x4 x5 x6 (ix3 b n e)
      = ∑ d : Fin 70, msg x1 (feat x0 x3 x4 x5) b n d * x6 (ix2 d e) := by
  refine (val_main_v13_apply x0 x1 x3 x4 x5 x6 (ix3 b n e)).trans ?_
  refine Finset.sum_congr rfl fun k _ => ?_
  rw [lidx13, ridx13, v12_apply]

/-- Layer two's output: `hid`. -/
theorem v17_apply (b : Fin 8192) (n : Fin 64) (e : Fin 70) :
    val_main_v17 (F := Ideal) x0 x1 x3 x4 x5 x6 x7 (ix3 b n e) = hid x1 (feat x0 x3 x4 x5) x6 x7 b n e := by
  show max (val_main_v13 (F := Ideal) x0 x1 x3 x4 x5 x6 (ix3 b n e) + val_main_v15 (F := Ideal) x7 (ix3 b n e))
      (val_main_call1_v0 (F := Ideal) (ix3 b n e)) = _
  rw [v13_apply, v15_apply, relu1_apply]
  rfl

/-- The second mixing by the adjacency matrix. -/
theorem v18_apply (b : Fin 8192) (n : Fin 64) (d : Fin 70) :
    val_main_v18 (F := Ideal) x0 x1 x3 x4 x5 x6 x7 (ix3 b n d)
      = ∑ m : Fin 64, x1 (ix3 b n m) * hid x1 (feat x0 x3 x4 x5) x6 x7 b m d := by
  refine (val_main_v18_apply x0 x1 x3 x4 x5 x6 x7 (ix3 b n d)).trans ?_
  refine Finset.sum_congr rfl fun m _ => ?_
  rw [lidx18, ridx18, v17_apply]

/-- The sum over the atoms, from zero: the pooled row, mixing first. -/
theorem v19_apply (b : Fin 8192) (d : Fin 70) :
    val_main_v19 (F := Ideal) x0 x1 x3 x4 x5 x6 x7 (ix2 b d) = pooledR x1 (feat x0 x3 x4 x5) x6 x7 b d := by
  refine (val_main_v19_apply x0 x1 x3 x4 x5 x6 x7 (ix2 b d)).trans ?_
  rw [cst_apply, zero_add]
  refine Finset.sum_congr rfl fun n _ => ?_
  rw [idx19, v18_apply]

/-! ## The join with the descriptors and the last linear map -/

/-- The pooled row joined with the seven descriptors along the columns. -/
theorem v20_apply (b : Fin 8192) (k : Fin 77) :
    val_main_v20 (F := Ideal) x0 x1 x2 x3 x4 x5 x6 x7 (ix2 b k) = joined x1 (feat x0 x3 x4 x5) x2 x6 x7 b k := by
  unfold val_main_v20 joined
  by_cases hk : k.val < 70
  · rw [dif_pos hk]
    refine (concatenate_pair_apply_left (1 : Fin 2) (val_main_v19 (F := Ideal) x0 x1 x3 x4 x5 x6 x7) x2 _ (ix2 b k) rfl
      (ix2 b ⟨k.val, hk⟩) fun ax => ?_).trans (v19_apply x0 x1 x3 x4 x5 x6 x7 b ⟨k.val, hk⟩)
    match ax with
    | ⟨0, _⟩ => rfl
    | ⟨1, _⟩ => rfl
  · rw [dif_neg hk]
    refine concatenate_pair_apply_right (1 : Fin 2) (val_main_v19 (F := Ideal) x0 x1 x3 x4 x5 x6 x7) x2 _ (ix2 b k) rfl rfl
      (ix2 b ⟨k.val - 70, by have := k.isLt; omega⟩) (fun ax hax => ?_) ?_
    · match ax with
      | ⟨0, _⟩ => rfl
      | ⟨1, _⟩ => exact absurd rfl hax
    · show k.val - 70 + 70 = k.val
      omega

/-- The last linear map over the 77 joined columns. -/
theorem v21_apply (b : Fin 8192) (c : Fin 11) :
    val_main_v21 (F := Ideal) x0 x1 x2 x3 x4 x5 x6 x7 x8 (ix2 b c)
      = ∑ k : Fin 77, joined x1 (feat x0 x3 x4 x5) x2 x6 x7 b k * x8 (ix2 k c) := by
  refine (val_main_v21_apply x0 x1 x2 x3 x4 x5 x6 x7 x8 (ix2 b c)).trans ?_
  refine Finset.sum_congr rfl fun k _ => ?_
  rw [lidx21, ridx21, v20_apply]

end Stages

/-! ## The reference program's output -/

/-- The reference program's result at an index is `outR` of the arrays at the index's coordinates, the atoms' rows
    being layer one's output on the gathered table rows. -/
theorem ref_eq_outR (x0 : (⟨Cert.ReferenceIdeal.S8192x64, .i32⟩ : BufTy).Contents (Elt Ideal)) (x1 : (⟨Cert.ReferenceIdeal.S8192x64x64, .f32⟩ : BufTy).Contents (Elt Ideal)) (x2 : (⟨Cert.ReferenceIdeal.S8192x7, .f32⟩ : BufTy).Contents (Elt Ideal)) (x3 : (⟨Cert.ReferenceIdeal.S10000x70, .f32⟩ : BufTy).Contents (Elt Ideal)) (x4 : (⟨Cert.ReferenceIdeal.S70x70, .f32⟩ : BufTy).Contents (Elt Ideal)) (x5 : (⟨Cert.ReferenceIdeal.S70, .f32⟩ : BufTy).Contents (Elt Ideal)) (x6 : (⟨Cert.ReferenceIdeal.S70x70, .f32⟩ : BufTy).Contents (Elt Ideal)) (x7 : (⟨Cert.ReferenceIdeal.S70, .f32⟩ : BufTy).Contents (Elt Ideal)) (x8 : (⟨Cert.ReferenceIdeal.S77x11, .f32⟩ : BufTy).Contents (Elt Ideal)) (x9 : (⟨Cert.ReferenceIdeal.S11, .f32⟩ : BufTy).Contents (Elt Ideal)) (i : Cert.ReferenceIdeal.S8192x11.Idx) :
    Cert.ReferenceIdeal.Read.val_main_v24 (F := Ideal) x0 x1 x2 x3 x4 x5 x6 x7 x8 x9 i
      = Cert.Gnn.outR (B := 8192) x1 (fun j => Cert.Gnn.hid1 x3 x4 x5 (Cert.Gnn.rowOf (Cert.ReferenceIdeal.Read.val_main_v5 (F := Ideal) x0) (j 0) (j 1)) (j 2)) x2 x6 x7 x8 x9 (i 0) (i 1) := by
  obtain ⟨b, c, rfl⟩ : ∃ b c, i = ix2 b c := ⟨i 0, i 1, eq_ix2 i⟩
  show val_main_v21 (F := Ideal) x0 x1 x2 x3 x4 x5 x6 x7 x8 (ix2 b c) + val_main_v23 (F := Ideal) x9 (ix2 b c)
    = outR (B := 8192) x1 (feat x0 x3 x4 x5) x2 x6 x7 x8 x9 b c
  rw [v21_apply, v23_apply]
  rfl

end Cert.Gnn.RefValue

end
-- ==== Proof.Finite.lean ====
/-
  The input precondition read back: the predicate is a conjunction of nine blocks, one per floating-point
  argument, each saying that every entry's absolute value compares below +∞. When the predicate holds, each block
  holds, and so every entry of every floating-point argument is a real number.
-/
import proofs.«178164_j63797444214829_2_alg».proof.Pre_finite_inputs
import proofs.«178164_j63797444214829_2_alg».proof.Proof.LibERealFinite
import Idealize.ShloMosaic.Lib.ValueIdx
import Idealize.ShloMosaic.Lib.ReduceAll

noncomputable section

namespace Cert.Gnn.Finite

open Idealize.ShloMosaic

/-- A pointwise conjunction of two arrays of one-bit words is 1 at an index exactly when both arrays are 1 there;
    this is the direction that splits it. -/
theorem andi_split {s : Shape} {a b : IVec s 1} {j : s.Idx} (h : andi a b j = 1#1) : a j = 1#1 ∧ b j = 1#1 :=
  IntOp.andi_eq_one.1 h

open Cert.Pre_finite_inputs in
/-- If the precondition holds (its one word is 1), every entry of each of the nine floating-point arguments is a
    real: the word is a left-nested conjunction of nine "all entries finite" words, split one at a time from the
    outside in, and each word gives its argument's entries. -/
theorem isReal_of_pre [Cert.Pre_finite_inputs.Facts]
    (x0 : IVec S8192x64 32) (x1 : FVec Ideal S8192x64x64 .f32) (x2 : FVec Ideal S8192x7 .f32)
    (x3 : FVec Ideal S10000x70 .f32) (x4 : FVec Ideal S70x70 .f32) (x5 : FVec Ideal S70 .f32)
    (x6 : FVec Ideal S70x70 .f32) (x7 : FVec Ideal S70 .f32) (x8 : FVec Ideal S77x11 .f32)
    (x9 : FVec Ideal S11 .f32)
    (h : Cert.Pre_finite_inputs.fn (F := Ideal) x0 x1 x2 x3 x4 x5 x6 x7 x8 x9 = fun _ => 1#1) :
    (∀ i, Cert.Lib.IsReal (x1 i)) ∧ (∀ i, Cert.Lib.IsReal (x2 i)) ∧ (∀ i, Cert.Lib.IsReal (x3 i)) ∧
    (∀ i, Cert.Lib.IsReal (x4 i)) ∧ (∀ i, Cert.Lib.IsReal (x5 i)) ∧ (∀ i, Cert.Lib.IsReal (x6 i)) ∧
    (∀ i, Cert.Lib.IsReal (x7 i)) ∧ (∀ i, Cert.Lib.IsReal (x8 i)) ∧ (∀ i, Cert.Lib.IsReal (x9 i)) := by
  have h0 := congrFun h ValueIdx.ix0
  dsimp only [Cert.Pre_finite_inputs.fn, fn_part1, fn_part2] at h0
  obtain ⟨h0, e9⟩ := andi_split h0
  obtain ⟨h0, e8⟩ := andi_split h0
  obtain ⟨h0, e7⟩ := andi_split h0
  obtain ⟨h0, e6⟩ := andi_split h0
  obtain ⟨h0, e5⟩ := andi_split h0
  obtain ⟨h0, e4⟩ := andi_split h0
  obtain ⟨h0, e3⟩ := andi_split h0
  obtain ⟨e1, e2⟩ := andi_split h0
  exact ⟨Cert.Lib.isReal_of_all_finite x1 _ _ _ _ e1, Cert.Lib.isReal_of_all_finite x2 _ _ _ _ e2,
    Cert.Lib.isReal_of_all_finite x3 _ _ _ _ e3, Cert.Lib.isReal_of_all_finite x4 _ _ _ _ e4,
    Cert.Lib.isReal_of_all_finite x5 _ _ _ _ e5, Cert.Lib.isReal_of_all_finite x6 _ _ _ _ e6,
    Cert.Lib.isReal_of_all_finite x7 _ _ _ _ e7, Cert.Lib.isReal_of_all_finite x8 _ _ _ _ e8,
    Cert.Lib.isReal_of_all_finite x9 _ _ _ _ e9⟩

end Cert.Gnn.Finite

end
-- ==== Proof.Bridge.lean ====
/-
  The two programs compute one function of the arguments.

  The kernel's output array is the specification's `outK` of the arrays its region finds; those are the arguments
  themselves, the atoms' rows (layer one of the embedding table, gathered by the atoms' start indices — the same rows the
  reference gets by gathering first and applying layer one after, since the gather only picks rows) and the two row ranges
  of the last weights.  The reference's output is `outR` of the same arrays.  The two agree when every float argument's
  entries are real numbers, which the precondition says: the pooled row's two orders of summation differ by
  distributivity, the last linear map's two forms by splitting one sum.
-/
import proofs.«178164_j63797444214829_2_alg».proof.Proof.KernelArray
import proofs.«178164_j63797444214829_2_alg».proof.Proof.KernelHost
import proofs.«178164_j63797444214829_2_alg».proof.Proof.RefValue
import proofs.«178164_j63797444214829_2_alg».proof.Proof.Finite

noncomputable section

namespace Cert.Gnn.Bridge

open Idealize.ShloMosaic Idealize.ShloMosaic.TcCoe Idealize.SL.Sem Idealize.ShloMosaic.ValueIdx Cert.Lib
open Cert.KernelIdeal Cert.KernelIdeal.Gen

section
variable (x0 : IVec Cert.KernelIdeal.S8192x64 32) (x1 : FVec Ideal Cert.KernelIdeal.S8192x64x64 .f32)
  (x2 : FVec Ideal Cert.KernelIdeal.S8192x7 .f32) (x3 : FVec Ideal Cert.KernelIdeal.S10000x70 .f32)
  (x4 : FVec Ideal Cert.KernelIdeal.S70x70 .f32) (x5 : FVec Ideal Cert.KernelIdeal.S70 .f32)
  (x6 : FVec Ideal Cert.KernelIdeal.S70x70 .f32) (x7 : FVec Ideal Cert.KernelIdeal.S70 .f32)
  (x8 : FVec Ideal Cert.KernelIdeal.S77x11 .f32) (x9 : FVec Ideal Cert.KernelIdeal.S11 .f32)

/-- The kernel's output as a function of the arguments. -/
def kernelOut : Cert.KernelIdeal.S8192x11.Idx → EReal := fun i =>
  outK (B := 8192) x1 (KHost.rows x0 x3 x4 x5) x2 x6 x7
    (extractStridedSlice S70x11 ![0, 0] x8 slices_S77x11_S70x11_0_0)
    (extractStridedSlice S7x11 ![70, 0] x8 slices_S77x11_S7x11_70_0) x9 (i 0) (i 1)

/-- The atoms' rows of the kernel (layer one, then the gather) are the reference's (the gather, then layer one). -/
theorem rows_eq : KHost.rows x0 x3 x4 x5
    = fun j => hid1 x3 x4 x5 (rowOf (Cert.ReferenceIdeal.Read.val_main_v5 (F := Ideal) x0) (j 0) (j 1)) (j 2) := by
  funext j
  obtain ⟨b, n, d, rfl⟩ : ∃ (b : Fin 8192) (n : Fin 64) (d : Fin 70), j = ix3 b n d := ⟨j 0, j 1, j 2, eq_ix3 j⟩
  exact KHost.rows_apply x0 x3 x4 x5 b n d

/-- Under the precondition the reference's result is the kernel's output. -/
theorem ref_eq_kernel [Cert.Pre_finite_inputs.Facts]
    (hpre : Cert.Pre_finite_inputs.fn (F := Ideal) x0 x1 x2 x3 x4 x5 x6 x7 x8 x9 = fun _ => 1#1) :
    Cert.ReferenceIdeal.Read.val_main_v24 (F := Ideal) x0 x1 x2 x3 x4 x5 x6 x7 x8 x9 = kernelOut x0 x1 x2 x3 x4 x5 x6 x7 x8 x9 := by
  obtain ⟨h1, h2, h3, h4, h5, h6, h7, h8, h9⟩ := Finite.isReal_of_pre x0 x1 x2 x3 x4 x5 x6 x7 x8 x9 hpre
  funext i
  refine (RefValue.ref_eq_outR x0 x1 x2 x3 x4 x5 x6 x7 x8 x9 i).trans ?_
  unfold kernelOut
  rw [rows_eq]
  exact outR_eq_outK x2 x8 _ _ x9 h1 (fun j => isReal_hid1 h3 h4 h5 _ _) h6 h7
    (fun d c => KHost.wp1_apply x8 d c) (fun k c => KHost.wp2_apply x8 k c) (i 0) (i 1)

end

/-- The kernel's output array after its run, as that function of the launch contents of the arguments. -/
theorem GK_eq (m : (ℓ : Loc Cert.KernelIdeal.nD Cert.KernelIdeal.τ Cert.KernelIdeal.sig) → Buf (Elt Ideal) ℓ)
    (c : Dev Cert.KernelIdeal.nD) :
    KArray.GK m c = kernelOut (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) := by
  unfold KArray.GK kernelOut
  rw [V_main_arg1 m c, V_main_arg2 m c, V_main_arg6 m c, V_main_arg7 m c, V_main_arg9 m c, KHost.V_rows m c,
    KHost.V_wp1 m c, KHost.V_wp2 m c]

end Cert.Gnn.Bridge

end
-- ==== Proof.lean ====
/-
  A message-passing network on 8192 molecules of 64 atoms: the kernel against its reference, on the extended reals.

  Both programs embed each atom (a row of a 10000-row table), apply two layers — a linear map, a bias and a rectifier,
  then mixing of a molecule's atoms by its adjacency matrix —, sum over the atoms, join seven descriptors and apply a last
  linear map with a bias.  The kernel differs in three places.  It applies layer one to the whole table and gathers the
  result, where the reference gathers and then applies layer one: the gather only picks rows, so the atoms' rows are the
  same.  It replaces the second mixing and the sum over the atoms, ∑ n, ∑ m, adj b n m · h b m d, by the adjacency
  matrix's column sums, ∑ m, (∑ n, adj b n m) · h b m d: equal by distributivity, which holds on the extended reals
  because the precondition makes every entry a real number.  And it splits the last linear map over the 77 joined
  columns into the 70 pooled columns and the 7 descriptor columns: one finite sum, re-indexed.
  The kernel works on blocks of 128 molecules; the network's tail reads one molecule at a time, so a block's result is
  the whole batch's function at the block's molecules, and the 64 blocks cover the output.
  The three frames are the generated ones (the reference's is its generated run with the result dropped); no rewrite
  was applied when the kernel was idealized, so nothing is owed for that claim.
-/
import proofs.«178164_j63797444214829_2_alg».proof.Defs
import proofs.«178164_j63797444214829_2_alg».proof.Proof.Gen.Kernel
import proofs.«178164_j63797444214829_2_alg».proof.Proof.Gen.Kernel.Skeleton
import proofs.«178164_j63797444214829_2_alg».proof.Proof.Gen.Kernel.Launch
import proofs.«178164_j63797444214829_2_alg».proof.Proof.Gen.Kernel.Points
import proofs.«178164_j63797444214829_2_alg».proof.Proof.Gen.Kernel.Frame
import proofs.«178164_j63797444214829_2_alg».proof.Proof.Gen.KernelIdeal
import proofs.«178164_j63797444214829_2_alg».proof.Proof.Gen.KernelIdeal.Skeleton
import proofs.«178164_j63797444214829_2_alg».proof.Proof.Gen.KernelIdeal.Launch
import proofs.«178164_j63797444214829_2_alg».proof.Proof.Gen.KernelIdeal.Points
import proofs.«178164_j63797444214829_2_alg».proof.Proof.Gen.KernelIdeal.Frame
import proofs.«178164_j63797444214829_2_alg».proof.Proof.Gen.ReferenceIdeal
import proofs.«178164_j63797444214829_2_alg».proof.Proof.Gen.Pre_finite_inputs
import proofs.«178164_j63797444214829_2_alg».proof.Proof.Gen.KernelIdeal.Value
import proofs.«178164_j63797444214829_2_alg».proof.Proof.Gen.ReferenceIdeal.Run
import proofs.«178164_j63797444214829_2_alg».proof.Proof.Gen.ReferenceIdeal.Read
import proofs.«178164_j63797444214829_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's result array ends at `kernelOut` of the arguments (its run read
    block by block) and the reference's at its composed term, which under the precondition is the same function. -/
theorem algebraic : Cert.algebraic_KernelIdeal_ReferenceIdeal := by
  intro m ρ m' ρ' hpre hagree
  refine ⟨fun c => Cert.Gnn.KArray.GK m c, Cert.Gnn.KArray.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v24_eq (F := Ideal) _ _ _ _ _ _ _ _ _ _).trans ?_
  obtain ⟨a0, a1, a2, a3, a4, a5, a6, a7, a8, a9⟩ := hagree c
  rw [a0, a1, a2, a3, a4, a5, a6, a7, a8, a9]
  show _ = Cert.Gnn.KArray.GK m c
  rw [Cert.Gnn.Bridge.GK_eq]
  exact Cert.Gnn.Bridge.ref_eq_kernel _ _ _ _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
